-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x256x16x16 : Shape := ⟨5, ![1, 32, 256, 16, 16]⟩
abbrev S256x256 : Shape := ⟨2, ![256, 256]⟩
abbrev S_ : Shape := ⟨0, ![]⟩

class Facts : Prop where
  bcast_S_S1x32x256x16x16 : S_.BroadcastsInDim S1x32x256x16x16 (![] : Fin 0 → Fin S1x32x256x16x16.rank)
  reducesTo_S1x32x256x16x16_S_d0_1_2_3_4 : S1x32x256x16x16.ReducesTo [0, 1, 2, 3, 4] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1x32x256x16x16 .f32) (main_arg1 : FVec F S256x256 .f32) (main_arg2 : FVec F S256x256 .f32) (main_arg3 : FVec F S256x256 .f32) : IVec S_ 1 :=
  let main_v0 : FVec F S1x32x256x16x16 .f32 := Host.absf main_arg0
  let main_cst : FVec F S_ .f32 := constant S_ .f32 0x7F800000#32
  let main_v1 : FVec F S1x32x256x16x16 .f32 := broadcastInDim S1x32x256x16x16 ![] bcast_S_S1x32x256x16x16 main_cst
  let main_v2 : IVec S1x32x256x16x16 1 := cmpf .olt main_v0 main_v1
  let main_c : IVec S_ 1 := constantI S_ 1 1#1
  let main_v3 : IVec S_ 1 := (fun x v => Host.reduce IntOp.andi x v reducesTo_S1x32x256x16x16_S_d0_1_2_3_4 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1x32x256x16x16 : Shape := ⟨5, ![1, 32, 256, 16, 16]⟩
abbrev S256x256 : Shape := ⟨2, ![256, 256]⟩
abbrev S1x32x16x16x256 : Shape := ⟨5, ![1, 32, 16, 16, 256]⟩
abbrev S8192x256 : Shape := ⟨2, ![8192, 256]⟩
abbrev S2048x256 : Shape := ⟨2, ![2048, 256]⟩
abbrev S1024x256 : Shape := ⟨2, ![1024, 256]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S1x32x256x16x16, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x32x16x16x256, .f32⟩
  | .hbm, ⟨5, _⟩ => ⟨S8192x256, .f32⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .f32⟩
  | .hbm, ⟨10, _⟩ => ⟨S1x32x16x16x256, .f32⟩
  | .hbm, ⟨11, _⟩ => ⟨S1x32x256x16x16, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S1024x256, .bf16⟩
  | .local _ .vmem, ⟨12, _⟩ => ⟨S1024x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S1024x256, .f32⟩
  | .local _ .vmem, ⟨18, _⟩ => ⟨S1024x256, .f32⟩
  | .local _ .vmem, ⟨19, _⟩ => ⟨S1024x1, .f32⟩
  | .local _ .vmem, ⟨20, _⟩ => ⟨S1024x1, .f32⟩
  | .local _ .vmem, ⟨21, _⟩ => ⟨S1024x256, .f32⟩
  | _, _ => ⟨S1x32x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1x32x256x16x16_S1x32x16x16x256_0_1_3_4_2 : S1x32x256x16x16.Transposes [0, 1, 3, 4, 2] S1x32x16x16x256
  shapeCasts_S1x32x16x16x256_S8192x256 : S1x32x16x16x256.ShapeCasts S8192x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  shapeCasts_S8192x256_S1x32x16x16x256 : S8192x256.ShapeCasts S1x32x16x16x256
  transposes_S1x32x16x16x256_S1x32x256x16x16_0_1_4_2_3 : S1x32x16x16x256.Transposes [0, 1, 4, 2, 3] S1x32x256x16x16
  dot_S2048x256_S256x256_S2048x256_1_0_0_1_n_n_wf : DotDims.WF S2048x256 S256x256 S2048x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .bf16 = 32 ∨ (Rect.block (s := S8192x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S8192x256.size a
  hwx0_5 : ∀ i : grid0.Coords, EltTy.bits .bf16 = 32 ∨ (Rect.block (s := S8192x256) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S8192x256.size a
  hwx0_6 : ∀ i : grid0.Coords, EltTy.bits .bf16 = 32 ∨ (Rect.block (s := S8192x256) S2048x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .bf16 = 32 ∨ (Rect.block (s := S8192x256) S2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1x32x256x16x16 : Shape := ⟨5, ![1, 32, 256, 16, 16]⟩
abbrev S256x256 : Shape := ⟨2, ![256, 256]⟩
abbrev S1x32x16x16x256 : Shape := ⟨5, ![1, 32, 16, 16, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x32x256x16x16, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1x32x16x16x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S256x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x256, .f32⟩
  | .hbm, ⟨30, _⟩ => ⟨S1x32x16x16x256, .f32⟩
  | .hbm, ⟨31, _⟩ => ⟨S1x32x256x16x16, .f32⟩
  | _, _ => ⟨S1x32x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  transposes_S1x32x256x16x16_S1x32x16x16x256_0_1_3_4_2 : S1x32x256x16x16.Transposes [0, 1, 3, 4, 2] S1x32x16x16x256
  shapeCasts_S1x32x16x16x256_S8192x256 : S1x32x16x16x256.ShapeCasts S8192x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S8192x256_S1x32x16x16x256 : S8192x256.ShapeCasts S1x32x16x16x256
  transposes_S1x32x16x16x256_S1x32x256x16x16_0_1_4_2_3 : S1x32x16x16x256.Transposes [0, 1, 4, 2, 3] S1x32x256x16x16
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.FrKernel.R0.lean ====
import proofs.«156809_j36636071035664_2_alg».proof.Proof.Gen.Kernel.Launch
import proofs.«156809_j36636071035664_2_alg».proof.Proof.Gen.Kernel.Skeleton
import proofs.«156809_j36636071035664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the projection kernel, pipeline 0): its half of the frame, at any float model

Seven windows on a grid of four points. Inputs: window 0 is a [2048,256] block of the activations (a new block
at every point), windows 1, 2, 3 are the three whole [256,256] weight matrices (one block, brought in once).
Outputs: windows 4, 5, 6 are [2048,256] bf16 blocks of q, k, v, each written by ONE store that covers the
whole block. Everything is stated at a PARAMETER `V`, the buffer contents when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter of everything below
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for ANY proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (a whole weight matrix, brought in at the first point only): at a point where it is not
    brought in its block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [2048,256] block. -/
abbrev rX0 : Rect S2048x256 := Rect.unit (s := S2048x256) ![0, 0] S2048x256.size inb_S2048x256_S2048x256_0_0
/-- The whole [256,256] matrix. -/
abbrev rW0 : Rect S256x256 := Rect.unit (s := S256x256) ![0, 0] S256x256.size inb_S256x256_S256x256_0_0

/-! ## What the body leaves in each output window's buffer -/

/-- Window 4 (q) after the body, from the activations' block `x0` and the first weight matrix `x1`: its one
    store, of the scaled product rounded to bf16. -/
def out0_4 (x0 : Vec F S2048x256 .f32) (x1 : Vec F S256x256 .f32) : Vec F S2048x256 .bf16 :=
  View.canon [⟨rX0, k0_pay2 (View.ld x0 rX0) (View.ld x1 rW0)⟩]
/-- Window 5 (k) after the body, from the activations' block and the second weight matrix. -/
def out0_5 (x0 : Vec F S2048x256 .f32) (x2 : Vec F S256x256 .f32) : Vec F S2048x256 .bf16 :=
  View.canon [⟨rX0, k0_pay3 (View.ld x0 rX0) (View.ld x2 rW0)⟩]
/-- Window 6 (v) after the body, from the activations' block and the third weight matrix. -/
def out0_6 (x0 : Vec F S2048x256 .f32) (x3 : Vec F S256x256 .f32) : Vec F S2048x256 .bf16 :=
  View.canon [⟨rX0, k0_pay4 (View.ld x0 rX0) (View.ld x3 rW0)⟩]

/-- One store of the whole block tiles the buffer, so it covers it. -/
theorem cover0_X (p0 : Vec F S2048x256 .bf16) (y : S2048x256.Idx) :
    ∃ pc ∈ ([⟨rX0, p0⟩] : List (View.Piece (Elt F) S2048x256 .bf16)), y ∈ pc.1.set :=
  View.cover_of_tiled [⟨rX0, p0⟩] S2048x256.size (by rfl) y

/-! ## The body's triple -/

set_option maxHeartbeats 1000000 in
/-- The kernel body on whole buffers, the four inputs' at read contents `x0 … x3` and the three outputs' at
    anything, runs to the continuation holding the inputs' as they were and each output's at `out0_W` of the
    inputs'. (Each output buffer is also loaded before it is stored; that value is never used.) -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S2048x256 .bf16) (harg5 : arg5.IsWhole) (arg6 : Memref sig .tc .vmem S2048x256 .bf16) (harg6 : arg6.IsWhole)
    (arg7 : Memref sig .tc .vmem S2048x256 .bf16) (harg7 : arg7.IsWhole)
    (x0 : Vec F S2048x256 .f32) (x1 : Vec F S256x256 .f32) (x2 : Vec F S256x256 .f32) (x3 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_X _)
  isplitl [H5]
  · iexists _; isplitr
    swap; · iexact H5
    ipureintro
    exact View.read_writes_eq_canon _ _ _ (cover0_X _)
  iexists _; isplitr
  swap; · iexact H6
  ipureintro
  exact View.read_writes_eq_canon _ _ _ (cover0_X _)

/-! ## The pipeline's proof data -/

/-- The proof data of pipeline 0 on core `c`: the arrays as the region finds them (`V`); after the body at
    point `t` each input's buffer at its block and each output's at `out0_W` of the input blocks; the invariant
    is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrKernel.R1Base.lean ====
/- Region 1 (the flash-attention kernel, grid [8,4]): what its three case runs share. The blocks of its windows
   read off the region-entry contents; the two branch conditions of the body in closed form over the grid; where
   the output window is idle; the staging and scratch memrefs; and the region invariant opened into the three
   scratch buffers (running maximum, running denominator, accumulator), the other scoped buffers and the
   generator register. -/
import proofs.«156809_j36636071035664_2_alg».proof.Proof.Gen.Kernel.Launch
import proofs.«156809_j36636071035664_2_alg».proof.Proof.Gen.Kernel.Skeleton
import proofs.«156809_j36636071035664_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block, fetched only when the key/value coordinate is 0) holds its block at every
    point, fetched there or not: unfetched, the block index has not moved and the body leaves the buffer as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key block) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the value block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the key/value coordinate is 0: the scratch is initialised),
    from the grid coordinates, the scalar chain substituted. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the key/value coordinate is 3: the output is stored). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (the first conditional taken, the second not) the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points of case B (neither conditional taken). -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C (the second conditional taken) the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1024x256 .f32 := (Memref.whole cc1_stg3_0 : Memref sig .tc .vmem S1024x256 .f32).view
/-- Each window's current staging memref at point `t`, spelled as the pipeline passes it, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The scratch operands: whole scoped buffers of the kernel's own — the running row maximum, the running
    denominator and the accumulator —, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
/-- The same as views: what each scratch holds is stated through them. -/
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant, opened -/

/-- The scoped buffers that are neither this pipeline's staging buffers nor its scratch (the other kernel's
    eleven staging buffers), each at some contents: the body never touches them. -/
def foreign1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region invariant with the scratch operands as memrefs owned at some contents: what the body obligation
    hands the run and takes back. -/
theorem PhiA1_eq (c : Dev nD) :
    (Pipeline.ΦA spec1 c : sProp 𝕄)
      = iprop(iprop(foreign1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; unfold foreign1
  refine Entails.antisymm ?_ ?_
  · show BIBase.Entails (PROP := sProp 𝕄) _ _
    iintro ⟨⟨Hf0, Hf1, Hf2, Hf3, Hf4, Hf5, Hf6, Hf7, Hf8, Hf9, Hf10, HS0, HS1, HS2⟩, Hg⟩
    isplitr [Hg]
    swap; · iexact Hg
    isplitr [HS0 HS1 HS2]
    swap
    · isplitl [HS0]; · iexact HS0
      isplitl [HS1]; · iexact HS1
      iexact HS2
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    iexact Hf10
  · show BIBase.Entails (PROP := sProp 𝕄) _ _
    iintro ⟨⟨⟨Hf0, Hf1, Hf2, Hf3, Hf4, Hf5, Hf6, Hf7, Hf8, Hf9, Hf10⟩, HS0, HS1, HS2⟩, Hg⟩
    isplitr [Hg]
    swap; · iexact Hg
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    isplitl [Hf10]; · iexact Hf10
    isplitl [HS0]; · iexact HS0
    isplitl [HS1]; · iexact HS1
    iexact HS2

end Cert.Kernel.Hand

end
-- ==== Proof.FrKernel.R1RunA.lean ====
/- Region 1, case A: the whole body of the flash-attention kernel run symbolically once. -/
import proofs.«156809_j36636071035664_2_alg».proof.Proof.FrKernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE A (the key/value coordinate is 0): the first conditional is taken — the running maximum is set to −∞, the
    denominator and the accumulator to 0 —, the second is not. On whole memrefs, the three inputs at their contents,
    the output at contents handed back untouched, the three scratch buffers at anything, the body runs to the
    continuation holding the inputs as they were and each scratch with its pieces written; the pieces (last first)
    are the witness the symbolic run finds. -/
noncomputable def kernelRun1_A (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.FrKernel.R1RunB.lean ====
/- Region 1, case B: the whole body of the flash-attention kernel run symbolically once. -/
import proofs.«156809_j36636071035664_2_alg».proof.Proof.FrKernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE B (the key/value coordinate is 1 or 2): neither conditional is taken. On whole memrefs, the three inputs at
    their contents, the output at contents handed back untouched, the three scratch buffers at what the point
    before left, the body runs to the continuation holding the inputs as they were and each scratch with its
    pieces written; the pieces (last first) are the witness the symbolic run finds. -/
noncomputable def kernelRun1_B (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.FrKernel.R1RunC.lean ====
/- Region 1, case C: the whole body of the flash-attention kernel run symbolically once. -/
import proofs.«156809_j36636071035664_2_alg».proof.Proof.FrKernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE C (the key/value coordinate is 3): the first conditional is not taken, the second is — the accumulator
    divided by the denominator is stored into the output. On whole memrefs, the three inputs at their contents, the
    output at anything, the three scratch buffers at what the point before left, the body runs to the continuation
    holding the inputs as they were, each scratch and the output with its pieces written; the pieces (last first)
    are the witness the symbolic run finds. -/
noncomputable def kernelRun1_C (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.FrKernel.R1.lean ====
/- Region 1 (the flash-attention kernel): what the output window and the three carried scratch buffers hold per
   case and point by point, the pipeline's proof data, and the body obligation at every grid point. -/
import proofs.«156809_j36636071035664_2_alg».proof.Proof.FrKernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

/-- Case A stores nothing into the output window (idle at its points and not written back there): no pieces — a
    placeholder (junk read back) that nothing consults. -/
def out1_A_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 (the running maximum) cover it: whole-buffer stores. -/
theorem scover1_A_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in scratch 0 (the running maximum): its pieces read back over junk. -/
def sout1_A_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 (the running denominator) cover it: whole-buffer stores. -/
theorem scover1_A_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in scratch 1 (the running denominator): its pieces read back over junk. -/
def sout1_A_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 (the accumulator) cover it: whole-buffer stores. -/
theorem scover1_A_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x256.size (by sl_kernel_rfl) y

/-- What case A leaves in scratch 2 (the accumulator): its pieces read back over junk. -/
def sout1_A_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B stores nothing into the output window (idle at its points and not written back there): no pieces — a
    placeholder (junk read back) that nothing consults. -/
def out1_B_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 (the running maximum) cover it: whole-buffer stores. -/
theorem scover1_B_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in scratch 0 (the running maximum): its pieces read back over junk. -/
def sout1_B_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 (the running denominator) cover it: whole-buffer stores. -/
theorem scover1_B_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in scratch 1 (the running denominator): its pieces read back over junk. -/
def sout1_B_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 (the accumulator) cover it: whole-buffer stores. -/
theorem scover1_B_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x256.size (by sl_kernel_rfl) y

/-- What case B leaves in scratch 2 (the accumulator): its pieces read back over junk. -/
def sout1_B_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's pieces for the output window tile its block (one store of the whole block), so they cover it. -/
theorem cover1_C_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

/-- What case C leaves in the output window's staging buffer: its pieces read back over junk. -/
def out1_C_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 (the running maximum) cover it: whole-buffer stores. -/
theorem scover1_C_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in scratch 0 (the running maximum): its pieces read back over junk. -/
def sout1_C_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 (the running denominator) cover it: whole-buffer stores. -/
theorem scover1_C_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in scratch 1 (the running denominator): its pieces read back over junk. -/
def sout1_C_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 (the accumulator) cover it: whole-buffer stores. -/
theorem scover1_C_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

/-- What case C leaves in scratch 2 (the accumulator): its pieces read back over junk. -/
def sout1_C_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output window and the scratch hold after each point -/

/-- THE ACCUMULATION. What the output window's staging buffer and the three scratch buffers (running maximum, running
    denominator, accumulator) hold after the body at position `n`: the case the closed forms select at `n`, run at
    the point's memrefs and input blocks, the scratch taken at what this leaves at `n - 1` (cases B and C; case A
    initialises it). An assignment of the conditions no point meets is no case. -/
def outsAt1 (c : Dev nD) : (n : ℕ) → n < cfg1.N → Vec F S1024x256 .f32 × Vec F S1024x1 .f32 × Vec F S1024x1 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the three scratch buffers CARRIED between points: before the first
    point the plain one (every scratch at anything); afterwards the other scoped buffers at anything, each scratch
    at what the point before left in it (`outsAt1`'s scratch components), and the generator register at some state. -/
def PhiS1 (c : Dev nD) : (n : ℕ) → n ≤ cfg1.N → sProp 𝕄
  | 0, _ => Pipeline.ΦA spec1 c
  | n + 1, hn => iprop(iprop(foreign1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(foreign1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(foreign1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, never unfolded further). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; so
    that case's run applies; the invariant hands the body the three scratch buffers at what the point before left
    (at anything at the first point) and the generator register, and takes the scratch back at this point's
    contents; the output window is handed back untouched where it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hf, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hf, HS0, HS1, HS2⟩, Hg⟩
  isplitl [Hf HS0 HS1 HS2]
  · isplitl [Hf]; · iexact Hf
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.FrKernel.Run.lean ====
import proofs.«156809_j36636071035664_2_alg».proof.Proof.FrKernel.R0
import proofs.«156809_j36636071035664_2_alg».proof.Proof.FrKernel.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's segments from the launch to the return

The program is a stretch of host operations, the projection kernel's region, the attention kernel's region and a
second stretch of host operations. Below: the buffer contents at each of the five boundaries, a fold from the launch
memory; each argument array read back through that fold to its launch contents; every pipeline's proof data at its
region's entry contents; a segment record per stretch and per region over the thread state "every unscoped buffer
at the boundary's contents, the generator register at some state, nothing owed"; and the run itself, whose post is
the whole last valuation, so that the result buffer can be read off it as well as the arguments.

## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. This is also region 1's entry: no host operation lies between. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: the end. -/
abbrev W4 : Dev nD → Valuation τ sig (Elt F) := fun c => StableHlo.after hostOps2 (W3 m ρ c)

/-! ### The arguments end as launched: no host operation and no region writes one (region 0 reads three of them
    through input windows, every other segment bypasses them), so the fold at an argument's buffer walks back to the
    launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from what the region's entry sorts out: the generator register and the scoped
    buffers no window stages (among them the three scratch buffers). -/
theorem hinA1 (c : Dev nD) :
    iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and back. -/
theorem houtA1 (c : Dev nD) :
    (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- Region 1 over the thread state: entered from every unscoped buffer at `W2`, left at `W3`. As region 0, but the
    invariant is the carried-scratch one: the class invariant leads into it at the first point and out of it at the
    last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    exact BIBase.Entails.trans (hinA1 c) (hin1 (V2 m ρ) c)
  hout c := by
    rw [Pipeline.ownSems0_none, show (pdats m ρ 1 c).Φ (Fin.last _) = (dat1 (V2 m ρ) c).Φ (Fin.last cfg1.N) from rfl]
    exact BIBase.Entails.trans (hout1 (V2 m ρ) c) (houtA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on
    the TensorCores terminates, nothing faulting, and every final state holds every unscoped buffer at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any `F`: every argument array ends as launched — the run, each argument read off the last
    valuation and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.FrKernelIdeal.R0.lean ====
import proofs.«156809_j36636071035664_2_alg».proof.Proof.Gen.KernelIdeal.Launch
import proofs.«156809_j36636071035664_2_alg».proof.Proof.Gen.KernelIdeal.Skeleton
import proofs.«156809_j36636071035664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the projection kernel, pipeline 0): its half of the frame, at any float model

Seven windows on a grid of four points. Inputs: window 0 is a [2048,256] block of the activations (a new block
at every point), windows 1, 2, 3 are the three whole [256,256] weight matrices (one block, brought in once).
Outputs: windows 4, 5, 6 are [2048,256] bf16 blocks of q, k, v, each written by ONE store that covers the
whole block. Everything is stated at a PARAMETER `V`, the buffer contents when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter of everything below
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for ANY proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (a whole weight matrix, brought in at the first point only): at a point where it is not
    brought in its block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [2048,256] block. -/
abbrev rX0 : Rect S2048x256 := Rect.unit (s := S2048x256) ![0, 0] S2048x256.size inb_S2048x256_S2048x256_0_0
/-- The whole [256,256] matrix. -/
abbrev rW0 : Rect S256x256 := Rect.unit (s := S256x256) ![0, 0] S256x256.size inb_S256x256_S256x256_0_0

/-! ## What the body leaves in each output window's buffer -/

/-- Window 4 (q) after the body, from the activations' block `x0` and the first weight matrix `x1`: its one
    store, of the scaled product rounded to bf16. -/
def out0_4 (x0 : Vec F S2048x256 .f32) (x1 : Vec F S256x256 .f32) : Vec F S2048x256 .bf16 :=
  View.canon [⟨rX0, k0_pay2 (View.ld x0 rX0) (View.ld x1 rW0)⟩]
/-- Window 5 (k) after the body, from the activations' block and the second weight matrix. -/
def out0_5 (x0 : Vec F S2048x256 .f32) (x2 : Vec F S256x256 .f32) : Vec F S2048x256 .bf16 :=
  View.canon [⟨rX0, k0_pay3 (View.ld x0 rX0) (View.ld x2 rW0)⟩]
/-- Window 6 (v) after the body, from the activations' block and the third weight matrix. -/
def out0_6 (x0 : Vec F S2048x256 .f32) (x3 : Vec F S256x256 .f32) : Vec F S2048x256 .bf16 :=
  View.canon [⟨rX0, k0_pay4 (View.ld x0 rX0) (View.ld x3 rW0)⟩]

/-- One store of the whole block tiles the buffer, so it covers it. -/
theorem cover0_X (p0 : Vec F S2048x256 .bf16) (y : S2048x256.Idx) :
    ∃ pc ∈ ([⟨rX0, p0⟩] : List (View.Piece (Elt F) S2048x256 .bf16)), y ∈ pc.1.set :=
  View.cover_of_tiled [⟨rX0, p0⟩] S2048x256.size (by rfl) y

/-! ## The body's triple -/

set_option maxHeartbeats 1000000 in
/-- The kernel body on whole buffers, the four inputs' at read contents `x0 … x3` and the three outputs' at
    anything, runs to the continuation holding the inputs' as they were and each output's at `out0_W` of the
    inputs'. (Each output buffer is also loaded before it is stored; that value is never used.) -/
theorem sound_kernel0 (c : Dev nD) (E : Set ℕ) (i : grid0.Coords)
    (arg1 : Memref sig .tc .vmem S2048x256 .f32) (harg1 : arg1.IsWhole) (arg2 : Memref sig .tc .vmem S256x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S2048x256 .bf16) (harg5 : arg5.IsWhole) (arg6 : Memref sig .tc .vmem S2048x256 .bf16) (harg6 : arg6.IsWhole)
    (arg7 : Memref sig .tc .vmem S2048x256 .bf16) (harg7 : arg7.IsWhole)
    (x0 : Vec F S2048x256 .f32) (x1 : Vec F S256x256 .f32) (x2 : Vec F S256x256 .f32) (x3 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_X _)
  isplitl [H5]
  · iexists _; isplitr
    swap; · iexact H5
    ipureintro
    exact View.read_writes_eq_canon _ _ _ (cover0_X _)
  iexists _; isplitr
  swap; · iexact H6
  ipureintro
  exact View.read_writes_eq_canon _ _ _ (cover0_X _)

/-! ## The pipeline's proof data -/

/-- The proof data of pipeline 0 on core `c`: the arrays as the region finds them (`V`); after the body at
    point `t` each input's buffer at its block and each output's at `out0_W` of the input blocks; the invariant
    is the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrKernelIdeal.R1Base.lean ====
/- Region 1 (the flash-attention kernel, grid [8,4]): what its three case runs share. The blocks of its windows
   read off the region-entry contents; the two branch conditions of the body in closed form over the grid; where
   the output window is idle; the staging and scratch memrefs; and the region invariant opened into the three
   scratch buffers (running maximum, running denominator, accumulator), the other scoped buffers and the
   generator register. -/
import proofs.«156809_j36636071035664_2_alg».proof.Proof.Gen.KernelIdeal.Launch
import proofs.«156809_j36636071035664_2_alg».proof.Proof.Gen.KernelIdeal.Skeleton
import proofs.«156809_j36636071035664_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query block, fetched only when the key/value coordinate is 0) holds its block at every
    point, fetched there or not: unfetched, the block index has not moved and the body leaves the buffer as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the key block) holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the value block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the key/value coordinate is 0: the scratch is initialised),
    from the grid coordinates, the scalar chain substituted. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the key/value coordinate is 3: the output is stored). -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A (the first conditional taken, the second not) the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points of case B (neither conditional taken). -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the points of case C (the second conditional taken) the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1024x256 .f32 := (Memref.whole cc1_stg3_0 : Memref sig .tc .vmem S1024x256 .f32).view
/-- Each window's current staging memref at point `t`, spelled as the pipeline passes it, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The scratch operands: whole scoped buffers of the kernel's own — the running row maximum, the running
    denominator and the accumulator —, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
/-- The same as views: what each scratch holds is stated through them. -/
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant, opened -/

/-- The scoped buffers that are neither this pipeline's staging buffers nor its scratch (the other kernel's
    eleven staging buffers), each at some contents: the body never touches them. -/
def foreign1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The region invariant with the scratch operands as memrefs owned at some contents: what the body obligation
    hands the run and takes back. -/
theorem PhiA1_eq (c : Dev nD) :
    (Pipeline.ΦA spec1 c : sProp 𝕄)
      = iprop(iprop(foreign1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; unfold foreign1
  refine Entails.antisymm ?_ ?_
  · show BIBase.Entails (PROP := sProp 𝕄) _ _
    iintro ⟨⟨Hf0, Hf1, Hf2, Hf3, Hf4, Hf5, Hf6, Hf7, Hf8, Hf9, Hf10, HS0, HS1, HS2⟩, Hg⟩
    isplitr [Hg]
    swap; · iexact Hg
    isplitr [HS0 HS1 HS2]
    swap
    · isplitl [HS0]; · iexact HS0
      isplitl [HS1]; · iexact HS1
      iexact HS2
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    iexact Hf10
  · show BIBase.Entails (PROP := sProp 𝕄) _ _
    iintro ⟨⟨⟨Hf0, Hf1, Hf2, Hf3, Hf4, Hf5, Hf6, Hf7, Hf8, Hf9, Hf10⟩, HS0, HS1, HS2⟩, Hg⟩
    isplitr [Hg]
    swap; · iexact Hg
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    isplitl [Hf10]; · iexact Hf10
    isplitl [HS0]; · iexact HS0
    isplitl [HS1]; · iexact HS1
    iexact HS2

end Cert.KernelIdeal.Hand

end
-- ==== Proof.FrKernelIdeal.R1RunA.lean ====
/- Region 1, case A: the whole body of the flash-attention kernel run symbolically once. -/
import proofs.«156809_j36636071035664_2_alg».proof.Proof.FrKernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE A (the key/value coordinate is 0): the first conditional is taken — the running maximum is set to −∞, the
    denominator and the accumulator to 0 —, the second is not. On whole memrefs, the three inputs at their contents,
    the output at contents handed back untouched, the three scratch buffers at anything, the body runs to the
    continuation holding the inputs as they were and each scratch with its pieces written; the pieces (last first)
    are the witness the symbolic run finds. -/
noncomputable def kernelRun1_A (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.FrKernelIdeal.R1RunB.lean ====
/- Region 1, case B: the whole body of the flash-attention kernel run symbolically once. -/
import proofs.«156809_j36636071035664_2_alg».proof.Proof.FrKernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE B (the key/value coordinate is 1 or 2): neither conditional is taken. On whole memrefs, the three inputs at
    their contents, the output at contents handed back untouched, the three scratch buffers at what the point
    before left, the body runs to the continuation holding the inputs as they were and each scratch with its
    pieces written; the pieces (last first) are the witness the symbolic run finds. -/
noncomputable def kernelRun1_B (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.FrKernelIdeal.R1RunC.lean ====
/- Region 1, case C: the whole body of the flash-attention kernel run symbolically once. -/
import proofs.«156809_j36636071035664_2_alg».proof.Proof.FrKernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

set_option maxHeartbeats 1000000 in
/-- CASE C (the key/value coordinate is 3): the first conditional is not taken, the second is — the accumulator
    divided by the denominator is stored into the output. On whole memrefs, the three inputs at their contents, the
    output at anything, the three scratch buffers at what the point before left, the body runs to the continuation
    holding the inputs as they were, each scratch and the output with its pieces written; the pieces (last first)
    are the witness the symbolic run finds. -/
noncomputable def kernelRun1_C (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) :
    Σ' (L3 : List (View.Piece (Elt F) S1024x256 .f32)), Σ' (LS0 : List (View.Piece (Elt F) S1024x1 .f32)), Σ' (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FrKernelIdeal.R1.lean ====
/- Region 1 (the flash-attention kernel): what the output window and the three carried scratch buffers hold per
   case and point by point, the pipeline's proof data, and the body obligation at every grid point. -/
import proofs.«156809_j36636071035664_2_alg».proof.Proof.FrKernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents: the parameter every statement about the region is made at
variable (V : (c : Dev nD) → (b : Ref sig .tc) → Buf (Elt F) ((c : Thread nD τ).loc b))

/-- Case A stores nothing into the output window (idle at its points and not written back there): no pieces — a
    placeholder (junk read back) that nothing consults. -/
def out1_A_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x256 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 (the running maximum) cover it: whole-buffer stores. -/
theorem scover1_A_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

/-- What case A leaves in scratch 0 (the running maximum): its pieces read back over junk. -/
def sout1_A_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 (the running denominator) cover it: whole-buffer stores. -/
theorem scover1_A_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y

/-- What case A leaves in scratch 1 (the running denominator): its pieces read back over junk. -/
def sout1_A_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 (the accumulator) cover it: whole-buffer stores. -/
theorem scover1_A_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) (y : S1024x256.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x256.size (by sl_kernel_rfl) y

/-- What case A leaves in scratch 2 (the accumulator): its pieces read back over junk. -/
def sout1_A_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x256 .bf16) (x1 : Vec F S2048x256 .bf16) (x2 : Vec F S2048x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B stores nothing into the output window (idle at its points and not written back there): no pieces — a
    placeholder (junk read back) that nothing consults. -/
def out1_B_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 (the running maximum) cover it: whole-buffer stores. -/
theorem scover1_B_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

/-- What case B leaves in scratch 0 (the running maximum): its pieces read back over junk. -/
def sout1_B_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 (the running denominator) cover it: whole-buffer stores. -/
theorem scover1_B_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y

/-- What case B leaves in scratch 1 (the running denominator): its pieces read back over junk. -/
def sout1_B_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 (the accumulator) cover it: whole-buffer stores. -/
theorem scover1_B_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x256.size (by sl_kernel_rfl) y

/-- What case B leaves in scratch 2 (the accumulator): its pieces read back over junk. -/
def sout1_B_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's pieces for the output window tile its block (one store of the whole block), so they cover it. -/
theorem cover1_C_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

/-- What case C leaves in the output window's staging buffer: its pieces read back over junk. -/
def out1_C_3 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 (the running maximum) cover it: whole-buffer stores. -/
theorem scover1_C_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

/-- What case C leaves in scratch 0 (the running maximum): its pieces read back over junk. -/
def sout1_C_0 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 (the running denominator) cover it: whole-buffer stores. -/
theorem scover1_C_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

/-- What case C leaves in scratch 1 (the running denominator): its pieces read back over junk. -/
def sout1_C_1 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 (the accumulator) cover it: whole-buffer stores. -/
theorem scover1_C_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

/-- What case C leaves in scratch 2 (the accumulator): its pieces read back over junk. -/
def sout1_C_2 (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x256 .bf16) (x1 : Vec F S2048x256 .bf16) (x2 : Vec F S2048x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output window and the scratch hold after each point -/

/-- THE ACCUMULATION. What the output window's staging buffer and the three scratch buffers (running maximum, running
    denominator, accumulator) hold after the body at position `n`: the case the closed forms select at `n`, run at
    the point's memrefs and input blocks, the scratch taken at what this leaves at `n - 1` (cases B and C; case A
    initialises it). An assignment of the conditions no point meets is no case. -/
def outsAt1 (c : Dev nD) : (n : ℕ) → n < cfg1.N → Vec F S1024x256 .f32 × Vec F S1024x1 .f32 × Vec F S1024x1 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left in the scratch. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratch. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the three scratch buffers CARRIED between points: before the first
    point the plain one (every scratch at anything); afterwards the other scoped buffers at anything, each scratch
    at what the point before left in it (`outsAt1`'s scratch components), and the generator register at some state. -/
def PhiS1 (c : Dev nD) : (n : ℕ) → n ≤ cfg1.N → sProp 𝕄
  | 0, _ => Pipeline.ΦA spec1 c
  | n + 1, hn => iprop(iprop(foreign1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(foreign1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(foreign1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents (the definition projected, never unfolded further). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; so
    that case's run applies; the invariant hands the body the three scratch buffers at what the point before left
    (at anything at the first point) and the generator register, and takes the scratch back at this point's
    contents; the output window is handed back untouched where it is idle; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨Hf, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨Hf, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hf HS0 HS1 HS2 Hg]
        · isplitl [Hf HS0 HS1 HS2]
          · isplitl [Hf]; · iexact Hf
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the plain one back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hf, HS0, HS1, HS2⟩, Hg⟩
  isplitl [Hf HS0 HS1 HS2]
  · isplitl [Hf]; · iexact Hf
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.FrKernelIdeal.Run.lean ====
import proofs.«156809_j36636071035664_2_alg».proof.Proof.FrKernelIdeal.R0
import proofs.«156809_j36636071035664_2_alg».proof.Proof.FrKernelIdeal.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the program's segments from the launch to the return

The program is a stretch of host operations, the projection kernel's region, the attention kernel's region and a
second stretch of host operations. Below: the buffer contents at each of the five boundaries, a fold from the launch
memory; each argument array read back through that fold to its launch contents; every pipeline's proof data at its
region's entry contents; a segment record per stretch and per region over the thread state "every unscoped buffer
at the boundary's contents, the generator register at some state, nothing owed"; and the run itself, whose post is
the whole last valuation, so that the result buffer can be read off it as well as the arguments.

## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. This is also region 1's entry: no host operation lies between. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: the end. -/
abbrev W4 : Dev nD → Valuation τ sig (Elt F) := fun c => StableHlo.after hostOps2 (W3 m ρ c)

/-! ### The arguments end as launched: no host operation and no region writes one (region 0 reads three of them
    through input windows, every other segment bypasses them), so the fold at an argument's buffer walks back to the
    launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends at
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- No operation of the second host stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays split out
    of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class invariant of region 1 from what the region's entry sorts out: the generator register and the scoped
    buffers no window stages (among them the three scratch buffers). -/
theorem hinA1 (c : Dev nD) :
    iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- and back. -/
theorem houtA1 (c : Dev nD) :
    (Pipeline.ΦA spec1 c : sProp 𝕄)
      ⊢ iprop((∃ r, prngReg c r) ∗ emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- Region 1 over the thread state: entered from every unscoped buffer at `W2`, left at `W3`. As region 0, but the
    invariant is the carried-scratch one: the class invariant leads into it at the first point and out of it at the
    last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    exact BIBase.Entails.trans (hinA1 c) (hin1 (V2 m ρ) c)
  hout c := by
    rw [Pipeline.ownSems0_none, show (pdats m ρ 1 c).Φ (Fin.last _) = (dat1 (V2 m ρ) c).Φ (Fin.last cfg1.N) from rfl]
    exact BIBase.Entails.trans (hout1 (V2 m ρ) c) (houtA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments: it is the chain of its items, and the segments' run is that chain. -/
theorem main_run (c : Dev nD) : main (F := F) c = Pipeline.Seg.run (segs m ρ) := (main_chain c).trans (by chain_rfl)

set_option backward.isDefEq.respectTransparency.types false in
/-- The run: at the compiled mesh, from any memory with zero counters, every weakly fair execution of the program on
    the TensorCores terminates, nothing faulting, and every final state holds every unscoped buffer at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame claim at any `F`: every argument array ends as launched — the run, each argument read off the last
    valuation and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.LibSoftmax.lean ====
/-
  Softmax attention over real matrices, with no maximum in sight.

  With real entries,
    mm x w        : the matrix product, entry (n, d) = ∑ h, x n h * w h d
    scale x s     : every entry times the real s
    score q k     : the inner products of the rows of q with the rows of k
    attn s v      : row-wise softmax of the scores s applied to v, written WITHOUT a maximum:
                    entry (i, d) = (∑ j, exp (s i j) * v j d) / (∑ j, exp (s i j)).
  Subtracting any real number M i from every score of row i leaves the quotient unchanged (numerator and
  denominator both pick up the factor exp (-(M i))): `attn_shift`; so does first normalising each weight by the
  row's total: `attn_normalised`. Hence the maximum a numerically careful evaluation subtracts — a running one
  in a blocked evaluation, the row's own in a direct one — never has to be named: only known to be a real number.
  Scaling the queries by s scales every score by s: `score_scale`.

  On the extended reals a real matrix is the array `arr f` of its entries' coercions (any extents), and the
  coercion of a finite real sum is the sum of the coercions: `coe_sum`.
-/
import Mathlib
import Idealize.ShloMosaic.PureOps.Ideal
import Idealize.ShloMosaic.Lib.ValueIdx

noncomputable section

open scoped BigOperators

namespace Cert.Spec

open Idealize.ShloMosaic Idealize.ShloMosaic.ValueIdx

/-- A real matrix with `a` rows and `b` columns. -/
abbrev Mat (a b : ℕ) := Fin a → Fin b → ℝ

/-- The matrix product. -/
def mm {a k b : ℕ} (x : Mat a k) (w : Mat k b) : Mat a b := fun n d => ∑ h, x n h * w h d

/-- Every entry times one real factor. -/
def scale {a b : ℕ} (x : Mat a b) (s : ℝ) : Mat a b := fun n d => x n d * s

/-- The inner product of row `i` of `q` with row `j` of `k`. -/
def score {a a' k : ℕ} (q : Mat a k) (kk : Mat a' k) (i : Fin a) (j : Fin a') : ℝ := ∑ d, q i d * kk j d

/-- Softmax of each row of the scores applied to `v`, with no maximum subtracted. -/
def attn {a a' b : ℕ} (s : Fin a → Fin a' → ℝ) (v : Mat a' b) : Mat a b :=
  fun i d => (∑ j, Real.exp (s i j) * v j d) / ∑ j, Real.exp (s i j)

/-- A real matrix as an array of extended reals. -/
def arr {a b : ℕ} (f : Mat a b) : (⟨2, ![a, b]⟩ : Shape).Idx → EReal := fun y => ((f (y 0) (y 1) : ℝ) : EReal)

theorem arr_ix2 {a b : ℕ} (f : Mat a b) (p : Fin a) (q : Fin b) : arr f (ix2 p q) = ((f p q : ℝ) : EReal) := rfl

theorem arr_apply {a b : ℕ} (f : Mat a b) (y : (⟨2, ![a, b]⟩ : Shape).Idx) : arr f y = ((f (y 0) (y 1) : ℝ) : EReal) := rfl

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling the queries scales every score. -/
theorem score_scale {a a' k : ℕ} (q : Mat a k) (kk : Mat a' k) (s : ℝ) (i : Fin a) (j : Fin a') :
    score (scale q s) kk i j = score q kk i j * s := by
  simp only [score, scale, Finset.sum_mul]
  exact Finset.sum_congr rfl fun d _ => by ring

/-- Softmax is unchanged when a real number `M i` is subtracted from every score of row `i`. -/
theorem attn_shift {a a' b : ℕ} (s : Fin a → Fin a' → ℝ) (v : Mat a' b) (M : Fin a → ℝ) (i : Fin a) (d : Fin b) :
    (∑ j, Real.exp (s i j - M i) * v j d) / (∑ j, Real.exp (s i j - M i)) = attn s v i d := by
  have h : ∀ j, Real.exp (s i j - M i) = Real.exp (s i j) * Real.exp (-(M i)) := fun j => by
    rw [← Real.exp_add]; ring_nf
  simp only [attn, h]
  have hne : Real.exp (-(M i)) ≠ 0 := (Real.exp_pos _).ne'
  rw [← Finset.sum_mul]
  have : (∑ j, Real.exp (s i j) * Real.exp (-(M i)) * v j d) = (∑ j, Real.exp (s i j) * v j d) * Real.exp (-(M i)) := by
    rw [Finset.sum_mul]; exact Finset.sum_congr rfl fun j _ => by ring
  rw [this, mul_div_mul_right _ _ hne]

/-- The denominator of a softmax row is positive when there is at least one column. -/
theorem sum_exp_pos {a' : ℕ} [NeZero a'] (f : Fin a' → ℝ) : 0 < ∑ j, Real.exp (f j) :=
  Finset.sum_pos (fun j _ => Real.exp_pos _) Finset.univ_nonempty

/-- The normalised form a direct evaluation uses: each weight exp (s j − M) divided by the row's total, then
    the weighted sum — the same matrix. -/
theorem attn_normalised {a a' b : ℕ} [NeZero a'] (s : Fin a → Fin a' → ℝ) (v : Mat a' b) (M : Fin a → ℝ)
    (i : Fin a) (d : Fin b) :
    (∑ j, (Real.exp (s i j - M i) / ∑ j', Real.exp (s i j' - M i)) * v j d) = attn s v i d := by
  rw [← attn_shift s v M i d, Finset.sum_div]
  exact Finset.sum_congr rfl fun j _ => by ring

end Cert.Spec

end
-- ==== Proof.Val.Spec.lean ====
/-
  The two projections of this certificate's programs on the extended reals, over the literal extents
  (8192 positions, 256 channels): `proj`, a plain sum of products over the 256 input channels, and
  `projScaled`, the same times the word 0x3D800000 = 1/16 (the softmax scale folded into the queries).
  When the operands are real matrices they are the coercions of the real product and of the scaled real
  product: `proj_arr`, `projScaled_arr`. The real-matrix vocabulary (Mat, mm, scale, score, attn, arr) is in
  LibSoftmax.
-/
import proofs.«156809_j36636071035664_2_alg».proof.Proof.LibSoftmax

noncomputable section

open scoped BigOperators

namespace Cert.Spec

open Idealize.ShloMosaic Idealize.ShloMosaic.ValueIdx

/-- A projection as the kernels and the reference spell it on the extended reals: the plain sum over the
    256 input channels. -/
def proj (x : (⟨2, ![8192, 256]⟩ : Shape).Idx → EReal) (w : (⟨2, ![256, 256]⟩ : Shape).Idx → EReal) :
    (⟨2, ![8192, 256]⟩ : Shape).Idx → EReal :=
  fun y => ∑ h : Fin 256, x (ix2 (y 0) h) * w (ix2 h (y 1))

/-- The query projection with the softmax scale folded in: the sum times the word 0x3D800000. -/
def projScaled (x : (⟨2, ![8192, 256]⟩ : Shape).Idx → EReal) (w : (⟨2, ![256, 256]⟩ : Shape).Idx → EReal) :
    (⟨2, ![8192, 256]⟩ : Shape).Idx → EReal :=
  fun y => (∑ h : Fin 256, x (ix2 (y 0) h) * w (ix2 h (y 1))) * Ideal.ofBits .f32 0x3D800000#32

/-- The word 0x3D800000 denotes 1/16. -/
theorem ofBits_sixteenth : Ideal.ofBits .f32 0x3D800000#32 = ((1 / 16 : ℝ) : EReal) := by
  simp [Ideal.ofBits, Ideal.ieee]
  rw [← EReal.coe_mul]
  exact congrArg _ (by norm_num)

theorem proj_arr (x : Mat 8192 256) (w : Mat 256 256) : proj (arr x) (arr w) = arr (mm x w) := by
  funext y
  simp only [proj, arr_ix2, arr_apply, mm, coe_sum, EReal.coe_mul]

theorem projScaled_arr (x : Mat 8192 256) (w : Mat 256 256) :
    projScaled (arr x) (arr w) = arr (scale (mm x w) (1 / 16)) := by
  funext y
  simp only [projScaled, arr_ix2, arr_apply, mm, scale, coe_sum, EReal.coe_mul, ofBits_sixteenth]

end Cert.Spec

end
-- ==== Proof.Val.HostEnds.lean ====
/-
  The two host stretches the kernel program shares with the reference. Before the first kernel region both
  programs move the channel axis of the [1,32,256,16,16] input last and flatten the four leading axes to the
  8192 positions; after the second region both unflatten the [8192,256] result and move the channel axis back.
  Stated for any contents of the buffers: what the kernel program's stretches leave is the reference's own
  stage of the same operand, so the certificate never reads either permutation at an index.
-/
import proofs.«156809_j36636071035664_2_alg».proof.Proof.Gen.KernelIdeal.Launch
import proofs.«156809_j36636071035664_2_alg».proof.Proof.Gen.ReferenceIdeal.Read
import Idealize.ShloMosaic.Lib.StableHlo.Run
import Idealize.ShloMosaic.PureOps.Ideal

noncomputable section

namespace Cert.Val

open Idealize.ShloMosaic Idealize.ShloMosaic.TcCoe Idealize.SL.Sem Idealize.ShloMosaic.StableHlo

section Ref
open Cert.ReferenceIdeal Cert.ReferenceIdeal.Gen Cert.ReferenceIdeal.Read

/-- The closing stretch as one function of the [8192,256] attention result: unflatten the positions, then move
    the channel axis from last to third. -/
def tail (o : (⟨S8192x256, .f32⟩ : BufTy).Contents (Elt Ideal)) : (⟨S1x32x256x16x16, .f32⟩ : BufTy).Contents (Elt Ideal) :=
  transpose S1x32x256x16x16 [0, 1, 4, 2, 3] (shapeCast _ o shapeCasts_S8192x256_S1x32x16x16x256)
    transposes_S1x32x16x16x256_S1x32x256x16x16_0_1_4_2_3

/-- The reference's result is the closing stretch of its attention stage. -/
theorem val23_eq_tail (x0 : (⟨S1x32x256x16x16, .f32⟩ : BufTy).Contents (Elt Ideal)) (x1 x2 x3 : (⟨S256x256, .f32⟩ : BufTy).Contents (Elt Ideal)) :
    val_main_v23 (F := Ideal) x0 x1 x2 x3 = tail (val_main_v21 (F := Ideal) x0 x1 x2 x3) := rfl

end Ref

section Ker
open Cert.KernelIdeal Cert.KernelIdeal.Gen

/-- The kernel program's opening stretch leaves in the [8192,256] buffer the reference's flattening of the input. -/
theorem head_eq (W : Valuation τ sig (Elt Ideal)) :
    StableHlo.after (hostOps0 (F := Ideal)) W (Proc.devRef .tc main_v1)
      = Cert.ReferenceIdeal.Read.val_main_v1 (F := Ideal) (W (Proc.devRef .tc main_arg0)) := by
  after_results
  rfl

/-- The kernel program's closing stretch applies the shared closing function to the second region's result. -/
theorem tail_eq (W : Valuation τ sig (Elt Ideal)) :
    StableHlo.after (hostOps2 (F := Ideal)) W (Proc.devRef .tc main_v5) = tail (W (Proc.devRef .tc main_v3)) := by
  after_results
  rfl

end Ker

end Cert.Val

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Val.R0Val.lean ====
import proofs.«156809_j36636071035664_2_alg».proof.Proof.FrKernelIdeal.R0
import proofs.«156809_j36636071035664_2_alg».proof.Proof.Val.Spec
import proofs.«156809_j36636071035664_2_alg».proof.Proof.LibMatmulRows
import Idealize.ShloMosaic.Lib.Pipeline.Value

/-! # Region 0 at the extended reals: the q, k, v arrays it leaves, as whole-array functions

At point t the projection kernel reads rows 2048 t … 2048 t + 2047 of the activations and the three whole weight
matrices, and writes the same rows of q, k, v. Rounding to bf16 is the identity on extended reals and a product
accumulated into zero is the plain sum, so entry (p, q) of a written block is ∑ h, x (2048 t + p, h) · W (h, q)
(for q, times the word 0x3D800000): the entry (2048 t + p, q) of ONE function of the whole arrays. The four
blocks of 2048 rows cover the 8192 rows, so each array ends holding that function. -/

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! The auxiliary lemmas live in `Cert.Val.R0`; the three results `arr0_4`, `arr0_5`, `arr0_6` are stated in `Cert.Val` at the end. -/
namespace R0

theorem hz0 : (![0, 0] : Fin 2 → Nat) = fun _ => 0 := funext fun a => by fin_cases a <;> rfl

/-! ## The payloads at an entry -/

/-- The q payload at an entry: the product's entry times the word 0x3D800000. -/
theorem pay2_apply (x0 : Vec Ideal S2048x256 .f32) (w : Vec Ideal S256x256 .f32) (p : Fin 2048) (q : Fin 256) :
    k0_pay2 (F := Ideal) x0 w (ix2 p q) = (∑ h : Fin 256, x0 (ix2 p h) * w (ix2 h q)) * Ideal.ofBits .f32 0x3D800000#32 := by
  unfold k0_pay2 k0_pay1
  dsimp only
  rw [shapeCast_self]
  refine (mulf_apply _ _ _).trans ?_
  refine congrArg (· * _) ?_
  exact Cert.Bridge.matmul_plain_zero_apply 2048 256 256 none x0 w p q

/-- The k payload at an entry: the product's entry. -/
theorem pay3_apply (x0 : Vec Ideal S2048x256 .f32) (w : Vec Ideal S256x256 .f32) (p : Fin 2048) (q : Fin 256) :
    k0_pay3 (F := Ideal) x0 w (ix2 p q) = ∑ h : Fin 256, x0 (ix2 p h) * w (ix2 h q) := by
  unfold k0_pay3 k0_pay1
  dsimp only
  rw [shapeCast_self]
  show matmul (F := Ideal) dot_S2048x256_S256x256_S2048x256_1_0_0_1_n_n none (truncf (F := Ideal) .bf16 x0 bitsLt_bf16_f32) (truncf (F := Ideal) .bf16 w bitsLt_bf16_f32) (constant (F := Ideal) S2048x256 .f32 0x00000000#32) (ix2 p q) = _
  exact Cert.Bridge.matmul_plain_zero_apply 2048 256 256 none x0 w p q

/-- The v payload at an entry: the product's entry. -/
theorem pay4_apply (x0 : Vec Ideal S2048x256 .f32) (w : Vec Ideal S256x256 .f32) (p : Fin 2048) (q : Fin 256) :
    k0_pay4 (F := Ideal) x0 w (ix2 p q) = ∑ h : Fin 256, x0 (ix2 p h) * w (ix2 h q) := by
  unfold k0_pay4 k0_pay1
  dsimp only
  rw [shapeCast_self]
  show matmul (F := Ideal) dot_S2048x256_S256x256_S2048x256_1_0_0_1_n_n none (truncf (F := Ideal) .bf16 x0 bitsLt_bf16_f32) (truncf (F := Ideal) .bf16 w bitsLt_bf16_f32) (constant (F := Ideal) S2048x256 .f32 0x00000000#32) (ix2 p q) = _
  exact Cert.Bridge.matmul_plain_zero_apply 2048 256 256 none x0 w p q

/-- Entry (p, q) of the q payload of a block of rows of X and the whole of W is entry (r, q) of the scaled projection. -/
theorem pay2_rows (x0 : Vec Ideal S2048x256 .f32) (w : Vec Ideal S256x256 .f32)
    (X : S8192x256.Idx → EReal) (W : S256x256.Idx → EReal) (p : Fin 2048) (q : Fin 256) (r : Fin 8192)
    (hx : ∀ h : Fin 256, x0 (ix2 p h) = X (ix2 r h)) (hw : ∀ h : Fin 256, w (ix2 h q) = W (ix2 h q)) :
    k0_pay2 (F := Ideal) x0 w (ix2 p q) = Cert.Spec.projScaled X W (ix2 r q) := by
  rw [pay2_apply]
  show _ = (∑ h : Fin 256, X (ix2 r h) * W (ix2 h q)) * _
  simp only [hx, hw]

/-- Entry (p, q) of the k payload of a block of rows of X and the whole of W is entry (r, q) of the projection. -/
theorem pay3_rows (x0 : Vec Ideal S2048x256 .f32) (w : Vec Ideal S256x256 .f32)
    (X : S8192x256.Idx → EReal) (W : S256x256.Idx → EReal) (p : Fin 2048) (q : Fin 256) (r : Fin 8192)
    (hx : ∀ h : Fin 256, x0 (ix2 p h) = X (ix2 r h)) (hw : ∀ h : Fin 256, w (ix2 h q) = W (ix2 h q)) :
    k0_pay3 (F := Ideal) x0 w (ix2 p q) = Cert.Spec.proj X W (ix2 r q) := by
  rw [pay3_apply]
  show _ = ∑ h : Fin 256, X (ix2 r h) * W (ix2 h q)
  simp only [hx, hw]

/-- Entry (p, q) of the v payload of a block of rows of X and the whole of W is entry (r, q) of the projection. -/
theorem pay4_rows (x0 : Vec Ideal S2048x256 .f32) (w : Vec Ideal S256x256 .f32)
    (X : S8192x256.Idx → EReal) (W : S256x256.Idx → EReal) (p : Fin 2048) (q : Fin 256) (r : Fin 8192)
    (hx : ∀ h : Fin 256, x0 (ix2 p h) = X (ix2 r h)) (hw : ∀ h : Fin 256, w (ix2 h q) = W (ix2 h q)) :
    k0_pay4 (F := Ideal) x0 w (ix2 p q) = Cert.Spec.proj X W (ix2 r q) := by
  rw [pay4_apply]
  show _ = ∑ h : Fin 256, X (ix2 r h) * W (ix2 h q)
  simp only [hx, hw]

/-! ## Where the blocks sit -/

/-- The block indices over the grid: the activations' and the outputs' blocks are the rows 2048 t … 2048 t + 2047;
    the weights' one block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The activations' block at point t, entry (p, h), is the array's entry (2048 t + p, h). -/
theorem iblk0_0_apply (c : Dev nD) (t : Fin cfg0.N) (p : Fin 2048) (h : Fin 256) (r : Fin 8192) (hr : r.val = t.val * 2048 + p.val) :
    (iblk0 V c 0 t : Vec Ideal S2048x256 .f32) (ix2 p h) = (V c main_v1 : S8192x256.Idx → EReal) (ix2 r h) := by
  obtain ⟨e0, e1, -⟩ := idx_facts0 t
  unfold iblk0
  rw [View.read_apply]
  show V c main_v1 _ = V c main_v1 _
  refine congrArg _ (funext fun a => Fin.ext ?_)
  match a with
  | ⟨0, _⟩ => show win0_0.index t 0 * 2048 + 1 * p.val = r.val; rw [e0, hr]; omega
  | ⟨1, _⟩ => show win0_0.index t 1 * 256 + 1 * h.val = h.val; rw [e1]; omega

/-- The first weight matrix's one block is the matrix. -/
theorem iblk0_1_apply (c : Dev nD) (t : Fin cfg0.N) (h : Fin 256) (q : Fin 256) :
    (iblk0 V c 1 t : Vec Ideal S256x256 .f32) (ix2 h q) = (V c main_arg1 : S256x256.Idx → EReal) (ix2 h q) := by
  obtain ⟨-, -, e0, e1, -⟩ := idx_facts0 t
  unfold iblk0
  rw [View.read_apply]
  show V c main_arg1 _ = V c main_arg1 _
  refine congrArg _ (funext fun a => Fin.ext ?_)
  match a with
  | ⟨0, _⟩ => show win0_1.index t 0 * 256 + 1 * h.val = h.val; rw [e0]; omega
  | ⟨1, _⟩ => show win0_1.index t 1 * 256 + 1 * q.val = q.val; rw [e1]; omega

/-- The second weight matrix's one block is the matrix. -/
theorem iblk0_2_apply (c : Dev nD) (t : Fin cfg0.N) (h : Fin 256) (q : Fin 256) :
    (iblk0 V c 2 t : Vec Ideal S256x256 .f32) (ix2 h q) = (V c main_arg2 : S256x256.Idx → EReal) (ix2 h q) := by
  obtain ⟨-, -, -, -, e0, e1, -⟩ := idx_facts0 t
  unfold iblk0
  rw [View.read_apply]
  show V c main_arg2 _ = V c main_arg2 _
  refine congrArg _ (funext fun a => Fin.ext ?_)
  match a with
  | ⟨0, _⟩ => show win0_2.index t 0 * 256 + 1 * h.val = h.val; rw [e0]; omega
  | ⟨1, _⟩ => show win0_2.index t 1 * 256 + 1 * q.val = q.val; rw [e1]; omega

/-- The third weight matrix's one block is the matrix. -/
theorem iblk0_3_apply (c : Dev nD) (t : Fin cfg0.N) (h : Fin 256) (q : Fin 256) :
    (iblk0 V c 3 t : Vec Ideal S256x256 .f32) (ix2 h q) = (V c main_arg3 : S256x256.Idx → EReal) (ix2 h q) := by
  obtain ⟨-, -, -, -, -, -, e0, e1, -⟩ := idx_facts0 t
  unfold iblk0
  rw [View.read_apply]
  show V c main_arg3 _ = V c main_arg3 _
  refine congrArg _ (funext fun a => Fin.ext ?_)
  match a with
  | ⟨0, _⟩ => show win0_3.index t 0 * 256 + 1 * h.val = h.val; rw [e0]; omega
  | ⟨1, _⟩ => show win0_3.index t 1 * 256 + 1 * q.val = q.val; rw [e1]; omega

/-! ## The q array (window 4) -/

/-- Where entry (p, q) of the q block at point t sits in the array: row 2048 t + p, column q. -/
theorem emb0_4 (t : Fin cfg0.N) (p : Fin 2048) (q : Fin 256) (r : Fin 8192) (hr : r.val = t.val * 2048 + p.val) :
    ((cfg0.win 4).blk t).view.emb (ix2 p q) = (ix2 r q : S8192x256.Idx) := by
  obtain ⟨-, -, -, -, -, -, -, -, e0, e1, -⟩ := idx_facts0 t
  refine funext fun a => Fin.ext ?_
  match a with
  | ⟨0, _⟩ => show win0_4.index t 0 * 2048 + 1 * p.val = r.val; rw [e0, hr]; omega
  | ⟨1, _⟩ => show win0_4.index t 1 * 256 + 1 * q.val = q.val; rw [e1]; omega

/-- The scaled query projection of the arrays as the region finds them, as the contents of the q array. -/
abbrev G4 (c : Dev nD) : Buf (Elt Ideal) ((c : Thread nD τ).loc main_v2_0) :=
  Cert.Spec.projScaled (V c main_v1) (V c main_arg1)

/-- Entry (p, q) of what point t leaves in the q buffer is that function at the entry's place in the array. -/
theorem pt0_4 (c : Dev nD) (t : Fin cfg0.N) (p : Fin 2048) (q : Fin 256) :
    k0_pay2 (F := Ideal) (iblk0 V c 0 t) (iblk0 V c 1 t) (ix2 p q) = G4 V c (((cfg0.win 4).blk t).view.emb (ix2 p q)) := by
  have hr : t.val * 2048 + p.val < 8192 := by have := t.isLt; have hN : cfg0.N = 4 := N_0; omega
  refine (pay2_rows (iblk0 V c 0 t) (iblk0 V c 1 t) (V c main_v1) (V c main_arg1) p q ⟨_, hr⟩
    (fun h => iblk0_0_apply V c t p h ⟨_, hr⟩ rfl) (fun h => iblk0_1_apply V c t h q)).trans ?_
  exact congrArg (G4 V c) (emb0_4 t p q ⟨_, hr⟩ rfl).symm

/-- The same at any index of the block. -/
theorem pt0_4' (c : Dev nD) (t : Fin cfg0.N) (y : S2048x256.Idx) :
    k0_pay2 (F := Ideal) (iblk0 V c 0 t) (iblk0 V c 1 t) y = G4 V c (((cfg0.win 4).blk t).view.emb y) :=
  (congrArg (k0_pay2 (F := Ideal) (iblk0 V c 0 t) (iblk0 V c 1 t)) (eq_ix2 y)).trans
    ((pt0_4 V c t (y 0) (y 1)).trans (congrArg (fun z => G4 V c (((cfg0.win 4).blk t).view.emb z)) (eq_ix2 y).symm))

/-- What point t writes back to the q array is block t of that function. -/
theorem flushed0_4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz0]
  simp only [View.ld_unit_zero (S := S2048x256) hz0, View.ld_unit_zero (S := S256x256) hz0]
  funext j
  exact pt0_4' V c t j

/-- An index of the q array is in point t's block iff each coordinate is in the block's range on its axis. -/
theorem mem_blk0_4 (t : Fin cfg0.N) (i : S8192x256.Idx) :
    i ∈ ((cfg0.win 4).blk t).view.set ↔ ∀ a : Fin 2, win0_4.index t a * S2048x256.size a ≤ (i a).val ∧ (i a).val < win0_4.index t a * S2048x256.size a + S2048x256.size a := by
  show i ∈ ((View.whole main_v2_0).slice (win0_4.rect t)).set ↔ _
  rw [View.set_slice_whole, Rect.mem_set_unit]
  exact Iff.rfl

/-- Every index of the q array is in the block of the point its row falls in: row r belongs to point r / 2048. -/
theorem cover0_4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 4 := N_0
  refine ⟨⟨(i 0).val / 2048, by omega⟩, flush0_4 _, ?_⟩
  rw [mem_blk0_4]
  obtain ⟨-, -, -, -, -, -, -, -, e0, e1, -⟩ := idx_facts0 ⟨(i 0).val / 2048, by omega⟩
  intro a
  match a with
  | ⟨0, _⟩ => show win0_4.index _ 0 * 2048 ≤ (i 0).val ∧ (i 0).val < win0_4.index _ 0 * 2048 + 2048; rw [e0]; show (i 0).val / 2048 * 2048 ≤ (i 0).val ∧ (i 0).val < (i 0).val / 2048 * 2048 + 2048; omega
  | ⟨1, _⟩ => show win0_4.index _ 1 * 256 ≤ (i 1).val ∧ (i 1).val < win0_4.index _ 1 * 256 + 256; rw [e1]; omega

/-! ## The k array (window 5) -/

/-- Where entry (p, q) of the k block at point t sits in the array: row 2048 t + p, column q. -/
theorem emb0_5 (t : Fin cfg0.N) (p : Fin 2048) (q : Fin 256) (r : Fin 8192) (hr : r.val = t.val * 2048 + p.val) :
    ((cfg0.win 5).blk t).view.emb (ix2 p q) = (ix2 r q : S8192x256.Idx) := by
  obtain ⟨-, -, -, -, -, -, -, -, -, -, e0, e1, -⟩ := idx_facts0 t
  refine funext fun a => Fin.ext ?_
  match a with
  | ⟨0, _⟩ => show win0_5.index t 0 * 2048 + 1 * p.val = r.val; rw [e0, hr]; omega
  | ⟨1, _⟩ => show win0_5.index t 1 * 256 + 1 * q.val = q.val; rw [e1]; omega

/-- The projection of the arrays as the region finds them, as the contents of the k array. -/
abbrev G5 (c : Dev nD) : Buf (Elt Ideal) ((c : Thread nD τ).loc main_v2_1) :=
  Cert.Spec.proj (V c main_v1) (V c main_arg2)

/-- Entry (p, q) of what point t leaves in the k buffer is that function at the entry's place in the array. -/
theorem pt0_5 (c : Dev nD) (t : Fin cfg0.N) (p : Fin 2048) (q : Fin 256) :
    k0_pay3 (F := Ideal) (iblk0 V c 0 t) (iblk0 V c 2 t) (ix2 p q) = G5 V c (((cfg0.win 5).blk t).view.emb (ix2 p q)) := by
  have hr : t.val * 2048 + p.val < 8192 := by have := t.isLt; have hN : cfg0.N = 4 := N_0; omega
  refine (pay3_rows (iblk0 V c 0 t) (iblk0 V c 2 t) (V c main_v1) (V c main_arg2) p q ⟨_, hr⟩
    (fun h => iblk0_0_apply V c t p h ⟨_, hr⟩ rfl) (fun h => iblk0_2_apply V c t h q)).trans ?_
  exact congrArg (G5 V c) (emb0_5 t p q ⟨_, hr⟩ rfl).symm

/-- The same at any index of the block. -/
theorem pt0_5' (c : Dev nD) (t : Fin cfg0.N) (y : S2048x256.Idx) :
    k0_pay3 (F := Ideal) (iblk0 V c 0 t) (iblk0 V c 2 t) y = G5 V c (((cfg0.win 5).blk t).view.emb y) :=
  (congrArg (k0_pay3 (F := Ideal) (iblk0 V c 0 t) (iblk0 V c 2 t)) (eq_ix2 y)).trans
    ((pt0_5 V c t (y 0) (y 1)).trans (congrArg (fun z => G5 V c (((cfg0.win 5).blk t).view.emb z)) (eq_ix2 y).symm))

/-- What point t writes back to the k array is block t of that function. -/
theorem flushed0_5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz0]
  simp only [View.ld_unit_zero (S := S2048x256) hz0, View.ld_unit_zero (S := S256x256) hz0]
  funext j
  exact pt0_5' V c t j

/-- An index of the k array is in point t's block iff each coordinate is in the block's range on its axis. -/
theorem mem_blk0_5 (t : Fin cfg0.N) (i : S8192x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v2_1).slice (win0_5.rect t)).set ↔ _
  rw [View.set_slice_whole, Rect.mem_set_unit]
  exact Iff.rfl

/-- Every index of the k array is in the block of the point its row falls in: row r belongs to point r / 2048. -/
theorem cover0_5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 4 := N_0
  refine ⟨⟨(i 0).val / 2048, by omega⟩, flush0_5 _, ?_⟩
  rw [mem_blk0_5]
  obtain ⟨-, -, -, -, -, -, -, -, -, -, e0, e1, -⟩ := idx_facts0 ⟨(i 0).val / 2048, by omega⟩
  intro a
  match a with
  | ⟨0, _⟩ => show win0_5.index _ 0 * 2048 ≤ (i 0).val ∧ (i 0).val < win0_5.index _ 0 * 2048 + 2048; rw [e0]; show (i 0).val / 2048 * 2048 ≤ (i 0).val ∧ (i 0).val < (i 0).val / 2048 * 2048 + 2048; omega
  | ⟨1, _⟩ => show win0_5.index _ 1 * 256 ≤ (i 1).val ∧ (i 1).val < win0_5.index _ 1 * 256 + 256; rw [e1]; omega

/-! ## The v array (window 6) -/

/-- Where entry (p, q) of the v block at point t sits in the array: row 2048 t + p, column q. -/
theorem emb0_6 (t : Fin cfg0.N) (p : Fin 2048) (q : Fin 256) (r : Fin 8192) (hr : r.val = t.val * 2048 + p.val) :
    ((cfg0.win 6).blk t).view.emb (ix2 p q) = (ix2 r q : S8192x256.Idx) := by
  obtain ⟨-, -, -, -, -, -, -, -, -, -, -, -, e0, e1⟩ := idx_facts0 t
  refine funext fun a => Fin.ext ?_
  match a with
  | ⟨0, _⟩ => show win0_6.index t 0 * 2048 + 1 * p.val = r.val; rw [e0, hr]; omega
  | ⟨1, _⟩ => show win0_6.index t 1 * 256 + 1 * q.val = q.val; rw [e1]; omega

/-- The projection of the arrays as the region finds them, as the contents of the v array. -/
abbrev G6 (c : Dev nD) : Buf (Elt Ideal) ((c : Thread nD τ).loc main_v2_2) :=
  Cert.Spec.proj (V c main_v1) (V c main_arg3)

/-- Entry (p, q) of what point t leaves in the v buffer is that function at the entry's place in the array. -/
theorem pt0_6 (c : Dev nD) (t : Fin cfg0.N) (p : Fin 2048) (q : Fin 256) :
    k0_pay4 (F := Ideal) (iblk0 V c 0 t) (iblk0 V c 3 t) (ix2 p q) = G6 V c (((cfg0.win 6).blk t).view.emb (ix2 p q)) := by
  have hr : t.val * 2048 + p.val < 8192 := by have := t.isLt; have hN : cfg0.N = 4 := N_0; omega
  refine (pay4_rows (iblk0 V c 0 t) (iblk0 V c 3 t) (V c main_v1) (V c main_arg3) p q ⟨_, hr⟩
    (fun h => iblk0_0_apply V c t p h ⟨_, hr⟩ rfl) (fun h => iblk0_3_apply V c t h q)).trans ?_
  exact congrArg (G6 V c) (emb0_6 t p q ⟨_, hr⟩ rfl).symm

/-- The same at any index of the block. -/
theorem pt0_6' (c : Dev nD) (t : Fin cfg0.N) (y : S2048x256.Idx) :
    k0_pay4 (F := Ideal) (iblk0 V c 0 t) (iblk0 V c 3 t) y = G6 V c (((cfg0.win 6).blk t).view.emb y) :=
  (congrArg (k0_pay4 (F := Ideal) (iblk0 V c 0 t) (iblk0 V c 3 t)) (eq_ix2 y)).trans
    ((pt0_6 V c t (y 0) (y 1)).trans (congrArg (fun z => G6 V c (((cfg0.win 6).blk t).view.emb z)) (eq_ix2 y).symm))

/-- What point t writes back to the v array is block t of that function. -/
theorem flushed0_6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz0]
  simp only [View.ld_unit_zero (S := S2048x256) hz0, View.ld_unit_zero (S := S256x256) hz0]
  funext j
  exact pt0_6' V c t j

/-- An index of the v array is in point t's block iff each coordinate is in the block's range on its axis. -/
theorem mem_blk0_6 (t : Fin cfg0.N) (i : S8192x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v2_2).slice (win0_6.rect t)).set ↔ _
  rw [View.set_slice_whole, Rect.mem_set_unit]
  exact Iff.rfl

/-- Every index of the v array is in the block of the point its row falls in: row r belongs to point r / 2048. -/
theorem cover0_6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 4 := N_0
  refine ⟨⟨(i 0).val / 2048, by omega⟩, flush0_6 _, ?_⟩
  rw [mem_blk0_6]
  obtain ⟨-, -, -, -, -, -, -, -, -, -, -, -, e0, e1⟩ := idx_facts0 ⟨(i 0).val / 2048, by omega⟩
  intro a
  match a with
  | ⟨0, _⟩ => show win0_6.index _ 0 * 2048 ≤ (i 0).val ∧ (i 0).val < win0_6.index _ 0 * 2048 + 2048; rw [e0]; show (i 0).val / 2048 * 2048 ≤ (i 0).val ∧ (i 0).val < (i 0).val / 2048 * 2048 + 2048; omega
  | ⟨1, _⟩ => show win0_6.index _ 1 * 256 ≤ (i 1).val ∧ (i 1).val < win0_6.index _ 1 * 256 + 256; rw [e1]; omega

end R0

/-! ## The three arrays after region 0 -/

variable (V : (c : Dev nD) → (b : Ref sig .tc) → Buf (Elt Ideal) ((c : Thread nD τ).loc b))

/-- The q array after region 0: the scaled query projection of the arrays the region found. -/
theorem arr0_4 (c : Dev nD) : (dat0 (F := Ideal) V c).arrAt 4 cfg0.N = Cert.Spec.projScaled (V c main_v1) (V c main_arg1) :=
  (dat0 V c).arrAt_eq_of_cover 4 (R0.G4 V c) (fun t _ => R0.flushed0_4_eq V c t) R0.cover0_4

/-- The k array after region 0: the projection of the arrays the region found. -/
theorem arr0_5 (c : Dev nD) : (dat0 (F := Ideal) V c).arrAt 5 cfg0.N = Cert.Spec.proj (V c main_v1) (V c main_arg2) :=
  (dat0 V c).arrAt_eq_of_cover 5 (R0.G5 V c) (fun t _ => R0.flushed0_5_eq V c t) R0.cover0_5

/-- The v array after region 0: the projection of the arrays the region found. -/
theorem arr0_6 (c : Dev nD) : (dat0 (F := Ideal) V c).arrAt 6 cfg0.N = Cert.Spec.proj (V c main_v1) (V c main_arg3) :=
  (dat0 V c).arrAt_eq_of_cover 6 (R0.G6 V c) (fun t _ => R0.flushed0_6_eq V c t) R0.cover0_6

end Cert.Val

end
-- ==== Proof.Val.Pieces.lean ====
/-
  What each control case of the flash-attention block step leaves behind, as one term over the step's inputs.

  A step reads the query block x0, the key block x1, the value block x2 and the carried scratch (running maximum
  xs0, running denominator xs1, accumulator xs2). Whatever the case, it leaves the new maximum, the new denominator
  and the new accumulator in the scratch; the last key block of a query block also leaves the quotient of the new
  accumulator by the new denominator in the output block. At the first key block of a query block the scratch is
  first set to its initial contents (−∞, 0, 0), and the step then reads those back in place of carried values.
  Every store and load covers its whole buffer, so a buffer holds exactly the payload of its last store.
-/
import proofs.«156809_j36636071035664_2_alg».proof.Proof.FrKernelIdeal.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The zero offsets of a whole-buffer rectangle of rank two. -/
theorem zeroOff2 : (![0, 0] : Fin 2 → Nat) = fun _ => 0 := funext fun a => by fin_cases a <;> rfl

/-- The first key block of a query block (the scratch starts at its initial contents): the running maximum after the step. -/
theorem sout1_A_0_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i) (x0 : Vec F S1024x256 .bf16) (x1 : Vec F S2048x256 .bf16) (x2 : Vec F S2048x256 .bf16) :
    sout1_A_0 c i arg2 harg2 arg3 harg3 arg4 harg4 arg5 harg5 arg6 harg6 arg7 harg7 arg8 harg8 hc0 hc1 x0 x1 x2 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The first key block of a query block (the scratch starts at its initial contents): the running denominator after the step. -/
theorem sout1_A_1_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i) (x0 : Vec F S1024x256 .bf16) (x1 : Vec F S2048x256 .bf16) (x2 : Vec F S2048x256 .bf16) :
    sout1_A_1 c i arg2 harg2 arg3 harg3 arg4 harg4 arg5 harg5 arg6 harg6 arg7 harg7 arg8 harg8 hc0 hc1 x0 x1 x2 = k1_pay11 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The first key block of a query block (the scratch starts at its initial contents): the accumulator after the step. -/
theorem sout1_A_2_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i) (x0 : Vec F S1024x256 .bf16) (x1 : Vec F S2048x256 .bf16) (x2 : Vec F S2048x256 .bf16) :
    sout1_A_2 c i arg2 harg2 arg3 harg3 arg4 harg4 arg5 harg5 arg6 harg6 arg7 harg7 arg8 harg8 hc0 hc1 x0 x1 x2 = k1_pay1 (k1_pay12 x0 x1 x2 k1_pay4 k1_pay4 k1_pay6) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x256) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The a middle key block: the running maximum after the step. -/
theorem sout1_B_0_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The a middle key block: the running denominator after the step. -/
theorem sout1_B_1_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The a middle key block: the accumulator after the step. -/
theorem sout1_B_2_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 hc0 hc1 x0 x1 x2 xs0 xs1 xs2 = k1_pay1 (k1_pay12 x0 x1 x2 xs0 xs0 xs2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S1024x256) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The the last key block of a query block: the running maximum after the step. -/
theorem sout1_C_0_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The the last key block of a query block: the running denominator after the step. -/
theorem sout1_C_1_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S1024x1) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The the last key block of a query block: the accumulator after the step. -/
theorem sout1_C_2_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 hc0 hc1 x0 x1 x2 xs0 xs1 xs2 = k1_pay1 (k1_pay12 x0 x1 x2 xs0 xs0 xs2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S1024x256) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

/-- The the last key block of a query block: the normalised block: the new accumulator over the new denominator. -/
theorem out1_C_3_eq (c : Dev nD) (i : grid1.Coords) (arg2 : Memref sig .tc .vmem S1024x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i) (x0 : Vec F S1024x256 .bf16) (x1 : Vec F S2048x256 .bf16) (x2 : Vec F S2048x256 .bf16) (xs0 : Vec F S1024x1 .f32) (xs1 : Vec F S1024x1 .f32) (xs2 : Vec F S1024x256 .f32) :
    out1_C_3 c i arg2 harg2 arg3 harg3 arg4 harg4 arg5 harg5 arg6 harg6 arg7 harg7 arg8 harg8 hc0 hc1 x0 x1 x2 xs0 xs1 xs2 = k1_pay3 (k1_pay1 (k1_pay12 x0 x1 x2 xs0 xs0 xs2)) (k1_pay11 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S1024x256) zeroOff2]
  simp only [View.readCov_unit_zero (S := S1024x1) _ zeroOff2, View.readCov_unit_zero (S := S1024x256) _ zeroOff2, View.readAt_eq_ld, harg2.read_unread, harg3.read_unread, harg4.read_unread, harg6.read_unread, harg7.read_unread, harg8.read_unread, View.ld_unit_zero (S := S1024x1) zeroOff2, View.ld_unit_zero (S := S1024x256) zeroOff2, View.ld_unit_zero (S := S2048x256) zeroOff2]

end Cert.KernelIdeal.Hand

end
-- ==== Proof.Val.Step.lean ====
/-
  The flash-attention block step read entry by entry on the extended reals.

  For a query block q (1024 rows), a key block k and a value block v (2048 rows each, 256 channels) and carried
  running maximum m, denominator l and accumulator acc, one step computes, row by row,
    s r j   = ∑ d, q r d * k j d                                  the scores
    m' r    = max (m r) (max over j of s r j)                     the new running maximum
    α r     = exp (m r − m' r)                                     the rescaling of what was carried
    p r j   = exp (s r j − m' r)                                   the block's weights
    l' r    = α r * l r + ∑ j, p r j                               the new denominator
    acc' r d = α r * acc r d + ∑ j, p r j * v j d                  the new accumulator
  and the last step of a query block divides: out r d = acc' r d / l' r. The scratch starts at m = −∞, l = 0,
  acc = 0. Each statement below reads one of these arrays at one index; a product of matrices is read as the sum
  over the contracted axis, a reduction along the key axis as the fold or sum over the 2048 keys, and a column
  [1024, 1] broadcast along a row reads its entry (r, 0).
-/
import proofs.«156809_j36636071035664_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

open scoped BigOperators

namespace Cert.Val

open Cert.KernelIdeal Cert.KernelIdeal.Gen Idealize.ShloMosaic Idealize.ShloMosaic.ValueIdx

/-! ## The two matrix products read at an index -/

theorem lhsS_0 (i : S1024x2048.Idx) (q : dot_S1024x256_S2048x256_S1024x2048_1_1_0_0_n_n.contr.Idx) : (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhsS_1 (i : S1024x2048.Idx) (q : dot_S1024x256_S2048x256_S1024x2048_1_1_0_0_n_n.contr.Idx) : (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhsS_0 (i : S1024x2048.Idx) (q : dot_S1024x256_S2048x256_S1024x2048_1_1_0_0_n_n.contr.Idx) : (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhsS_1 (i : S1024x2048.Idx) (q : dot_S1024x256_S2048x256_S1024x2048_1_1_0_0_n_n.contr.Idx) : (dot_S1024x256_S2048x256_S1024x2048_1_1_0_0_n_n.rhsIdx i q 1).val = (q ⟨0, by decide⟩).val :=
  dot_S1024x256_S2048x256_S1024x2048_1_1_0_0_n_n.rhsIdx_val_of_single rfl i q

/-- A product that contracts the LAST axis of both operands, accumulated into the zero array, read at
    `(r, j)`: the inner product of row `r` of the first operand with row `j` of the second. -/
theorem matmulS_apply (a : FVec Ideal S1024x256 .bf16) (b : FVec Ideal S2048x256 .bf16) (r : Fin 1024) (j : Fin 2048) :
    FloatOps.matmul dot_S1024x256_S2048x256_S1024x2048_1_1_0_0_n_n none a b (constant S1024x2048 .f32 0x00000000#32) (ix2 r j)
      = ∑ d : Fin 256, a (ix2 r d) * b (ix2 j d) := by
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 r j) ((contrEquiv1 dot_S1024x256_S2048x256_S1024x2048_1_1_0_0_n_n 256 rfl rfl).symm k) = ix2 r k := funext fun c => Fin.ext (by
    match c with
    | ⟨0, _⟩ => exact lhsS_0 _ _
    | ⟨1, _⟩ => exact (lhsS_1 _ _).trans hk)
  have er : dot_S1024x256_S2048x256_S1024x2048_1_1_0_0_n_n.rhsIdx (ix2 r j) ((contrEquiv1 dot_S1024x256_S2048x256_S1024x2048_1_1_0_0_n_n 256 rfl rfl).symm k) = ix2 j k := funext fun c => Fin.ext (by
    match c with
    | ⟨0, _⟩ => exact rhsS_0 _ _
    | ⟨1, _⟩ => exact (rhsS_1 _ _).trans hk)
  rw [el, er]

theorem lhsP_0 (i : S1024x256.Idx) (q : dot_S1024x2048_S2048x256_S1024x256_1_0_0_1_n_n.contr.Idx) : (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhsP_1 (i : S1024x256.Idx) (q : dot_S1024x2048_S2048x256_S1024x256_1_0_0_1_n_n.contr.Idx) : (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhsP_0 (i : S1024x256.Idx) (q : dot_S1024x2048_S2048x256_S1024x256_1_0_0_1_n_n.contr.Idx) : (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhsP_1 (i : S1024x256.Idx) (q : dot_S1024x2048_S2048x256_S1024x256_1_0_0_1_n_n.contr.Idx) : (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The plain rows-by-columns product, accumulated into the zero array, read at `(r, d)`. -/
theorem matmulP_apply (a : FVec Ideal S1024x2048 .bf16) (b : FVec Ideal S2048x256 .bf16) (r : Fin 1024) (d : Fin 256) :
    FloatOps.matmul dot_S1024x2048_S2048x256_S1024x256_1_0_0_1_n_n none a b (constant S1024x256 .f32 0x00000000#32) (ix2 r d)
      = ∑ j : Fin 2048, a (ix2 r j) * b (ix2 j d) := by
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r d) ((contrEquiv1 dot_S1024x2048_S2048x256_S1024x256_1_0_0_1_n_n 2048 rfl rfl).symm k) = ix2 r k := funext fun c => Fin.ext (by
    match c with
    | ⟨0, _⟩ => exact lhsP_0 _ _
    | ⟨1, _⟩ => exact (lhsP_1 _ _).trans hk)
  have er : dot_S1024x2048_S2048x256_S1024x256_1_0_0_1_n_n.rhsIdx (ix2 r d) ((contrEquiv1 dot_S1024x2048_S2048x256_S1024x256_1_0_0_1_n_n 2048 rfl rfl).symm k) = ix2 k d := funext fun c => Fin.ext (by
    match c with
    | ⟨0, _⟩ => exact (rhsP_0 _ _).trans hk
    | ⟨1, _⟩ => exact rhsP_1 _ _)
  rw [el, er]

/-! ## The scores -/

/-- The score of query row `r` against key row `j`: the inner product over the 256 channels. -/
def sc (x0 : FVec Ideal S1024x256 .bf16) (x1 : FVec Ideal S2048x256 .bf16) (r : Fin 1024) (j : Fin 2048) : EReal :=
  ∑ d : Fin 256, x0 (ix2 r d) * x1 (ix2 j d)

theorem pay7_apply (x0 : FVec Ideal S1024x256 .bf16) (x1 : FVec Ideal S2048x256 .bf16) (r : Fin 1024) (j : Fin 2048) :
    k1_pay7 (F := Ideal) x0 x1 (ix2 r j) = sc x0 x1 r j := by
  unfold k1_pay7 sc
  refine (matmulS_apply _ _ r j).trans ?_
  rw [shapeCast_self, shapeCast_self]

/-! ## Keepdims layouts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along axis 1 reads: row `r`, column `k`. -/
theorem lift_row (r : Fin 1024) (k : Fin 2048) : reduces_S1024x2048_S1024.lift (ix1 r) k = ix2 r k :=
  funext fun c => Fin.ext (match c with | ⟨0, _⟩ => rfl | ⟨1, _⟩ => rfl)

/-- The word 0xFF800000 denotes −∞. -/
theorem ofBits_neg_inf : Ideal.ofBits .f32 0xFF800000#32 = (⊥ : EReal) := by simp [Ideal.ofBits, Ideal.ieee]

/-- The maximum along axis 1 from −∞, read at row `r`. -/
theorem rowMaxRed_apply (src : FVec Ideal S1024x2048 .f32) (r : Fin 1024) :
    multiReduction .maximumf [1] S1024 src 0xFF800000#32 reduces_S1024x2048_S1024 (.inl rfl) rfl (ix1 r)
      = (Finset.univ : Finset (Fin 2048)).fold max ⊥ (fun j => src (ix2 r j)) := by
  refine (Ideal.multiReduction_maximumf_single src 0xFF800000#32 reduces_S1024x2048_S1024 (.inl rfl) rfl (ix1 r)).trans ?_
  show (Finset.univ : Finset (Fin 2048)).fold max (Ideal.ofBits .f32 0xFF800000#32) (fun k => src (reduces_S1024x2048_S1024.lift (ix1 r) k)) = _
  rw [ofBits_neg_inf]
  exact congrArg (fun f => (Finset.univ : Finset (Fin 2048)).fold max ⊥ f) (funext fun k => congrArg src (lift_row r k))

/-- The sum along axis 1 from zero, read at row `r`. -/
theorem rowSumRed_apply (src : FVec Ideal S1024x2048 .f32) (r : Fin 1024) :
    multiReduction .add [1] S1024 src 0x00000000#32 reduces_S1024x2048_S1024 (.inl rfl) rfl (ix1 r)
      = ∑ j : Fin 2048, src (ix2 r j) := by
  refine (Ideal.multiReduction_add_single src 0x00000000#32 reduces_S1024x2048_S1024 (.inl rfl) rfl (ix1 r)).trans ?_
  exact Finset.sum_congr rfl fun k _ => congrArg src (lift_row r k)

/-! ## The running maximum -/

/-- The maximum of the scores of row `r` over the 2048 keys of the block. -/
def rowMax (x0 : FVec Ideal S1024x256 .bf16) (x1 : FVec Ideal S2048x256 .bf16) (r : Fin 1024) : EReal :=
  (Finset.univ : Finset (Fin 2048)).fold max ⊥ (fun j => sc x0 x1 r j)

/-- The running maximum after the block: the carried one against the block's. -/
def mNew (x0 : FVec Ideal S1024x256 .bf16) (x1 : FVec Ideal S2048x256 .bf16) (v10 : FVec Ideal S1024x1 .f32) (r : Fin 1024) : EReal :=
  max (v10 (ix2 r (0 : Fin 1))) (rowMax x0 x1 r)

theorem pay8_apply (x0 : FVec Ideal S1024x256 .bf16) (x1 : FVec Ideal S2048x256 .bf16) (v10 : FVec Ideal S1024x1 .f32) (r : Fin 1024) :
    k1_pay8 (F := Ideal) x0 x1 v10 (ix2 r (0 : Fin 1)) = mNew x0 x1 v10 r := by
  unfold k1_pay8 mNew rowMax
  refine congrArg (max (v10 (ix2 r (0 : Fin 1)))) ?_
  refine (shapeCast_a_a1_apply _ shapeCasts_S1024_S1024x1 r (0 : Fin 1)).trans ?_
  refine (rowMaxRed_apply (k1_pay7 x0 x1) r).trans ?_
  exact congrArg (fun f => (Finset.univ : Finset (Fin 2048)).fold max ⊥ f) (funext fun j => pay7_apply x0 x1 r j)

theorem pay9_apply (x0 : FVec Ideal S1024x256 .bf16) (x1 : FVec Ideal S2048x256 .bf16) (v10 v14 : FVec Ideal S1024x1 .f32) (r : Fin 1024) :
    k1_pay9 (F := Ideal) x0 x1 v10 v14 (ix2 r (0 : Fin 1)) = Ideal.exp (v14 (ix2 r (0 : Fin 1)) - mNew x0 x1 v10 r) := by
  unfold k1_pay9
  exact congrArg (fun t => Ideal.exp (v14 (ix2 r (0 : Fin 1)) - t)) (pay8_apply x0 x1 v10 r)

theorem pay10_apply (x0 : FVec Ideal S1024x256 .bf16) (x1 : FVec Ideal S2048x256 .bf16) (v10 : FVec Ideal S1024x1 .f32) (r : Fin 1024) (j : Fin 2048) :
    k1_pay10 (F := Ideal) x0 x1 v10 (ix2 r j) = Ideal.exp (sc x0 x1 r j - mNew x0 x1 v10 r) := by
  unfold k1_pay10
  show Ideal.exp (k1_pay7 (F := Ideal) x0 x1 (ix2 r j) - broadcastTo S1024x2048 (k1_pay8 (F := Ideal) x0 x1 v10) broadcasts_S1024x1_S1024x2048 (ix2 r j)) = _
  rw [pay7_apply, broadcastTo_a1_ab_apply (k1_pay8 (F := Ideal) x0 x1 v10) broadcasts_S1024x1_S1024x2048 r j, pay8_apply]

/-! ## The running denominator, the accumulator and the normalised output -/

theorem pay11_apply (x0 : FVec Ideal S1024x256 .bf16) (x1 : FVec Ideal S2048x256 .bf16) (v10 v14 v20 : FVec Ideal S1024x1 .f32) (r : Fin 1024) :
    k1_pay11 (F := Ideal) x0 x1 v10 v14 v20 (ix2 r (0 : Fin 1))
      = Ideal.exp (v14 (ix2 r (0 : Fin 1)) - mNew x0 x1 v10 r) * v20 (ix2 r (0 : Fin 1))
        + ∑ j : Fin 2048, Ideal.exp (sc x0 x1 r j - mNew x0 x1 v10 r) := by
  unfold k1_pay11
  refine (congrFun (shapeCast_self _ shapeCasts_S1024x1_S1024x1) (ix2 r (0 : Fin 1))).trans ?_
  show k1_pay9 (F := Ideal) x0 x1 v10 v14 (ix2 r (0 : Fin 1)) * v20 (ix2 r (0 : Fin 1))
      + shapeCast S1024x1 (multiReduction .add [1] S1024 (k1_pay10 (F := Ideal) x0 x1 v10) 0x00000000#32 reduces_S1024x2048_S1024 (.inl rfl) rfl) shapeCasts_S1024_S1024x1 (ix2 r (0 : Fin 1)) = _
  rw [pay9_apply, shapeCast_a_a1_apply _ shapeCasts_S1024_S1024x1 r (0 : Fin 1), rowSumRed_apply]
  exact congrArg _ (Finset.sum_congr rfl fun j _ => pay10_apply x0 x1 v10 r j)

theorem pay12_apply (x0 : FVec Ideal S1024x256 .bf16) (x1 x2 : FVec Ideal S2048x256 .bf16) (v10 v14 : FVec Ideal S1024x1 .f32)
    (v28 : FVec Ideal S1024x256 .f32) (r : Fin 1024) (d : Fin 256) :
    k1_pay12 (F := Ideal) x0 x1 x2 v10 v14 v28 (ix2 r d)
      = Ideal.exp (v14 (ix2 r (0 : Fin 1)) - mNew x0 x1 v10 r) * v28 (ix2 r d)
        + ∑ j : Fin 2048, Ideal.exp (sc x0 x1 r j - mNew x0 x1 v10 r) * x2 (ix2 j d) := by
  unfold k1_pay12
  show broadcastTo S1024x256 (k1_pay9 (F := Ideal) x0 x1 v10 v14) broadcasts_S1024x1_S1024x256 (ix2 r d) * v28 (ix2 r d)
      + FloatOps.matmul dot_S1024x2048_S2048x256_S1024x256_1_0_0_1_n_n none (truncf .bf16 (k1_pay10 (F := Ideal) x0 x1 v10) bitsLt_bf16_f32)
          (shapeCast S2048x256 x2 shapeCasts_S2048x256_S2048x256) (constant S1024x256 .f32 0x00000000#32) (ix2 r d) = _
  rw [broadcastTo_a1_ab_apply (k1_pay9 (F := Ideal) x0 x1 v10 v14) broadcasts_S1024x1_S1024x256 r d, pay9_apply, matmulP_apply,
    shapeCast_self]
  exact congrArg _ (Finset.sum_congr rfl fun j _ => congrArg (· * x2 (ix2 j d)) (pay10_apply x0 x1 v10 r j))

theorem pay3_apply (v43 : FVec Ideal S1024x256 .f32) (v44 : FVec Ideal S1024x1 .f32) (r : Fin 1024) (d : Fin 256) :
    k1_pay3 (F := Ideal) v43 v44 (ix2 r d) = Ideal.div (v43 (ix2 r d)) (v44 (ix2 r (0 : Fin 1))) := by
  unfold k1_pay3
  exact congrArg (Ideal.div (v43 (ix2 r d))) (broadcastTo_a1_ab_apply v44 broadcasts_S1024x1_S1024x256 r d)

theorem pay1_eq (v : FVec Ideal S1024x256 .f32) : k1_pay1 (F := Ideal) v = v := shapeCast_self v shapeCasts_S1024x256_S1024x256

theorem pay2_eq (v : FVec Ideal S1024x1 .f32) : k1_pay2 (F := Ideal) v = v := shapeCast_self v shapeCasts_S1024x1_S1024x1

/-! ## The initial scratch contents -/

theorem pay4_apply (r : Fin 1024) : k1_pay4 (F := Ideal) (ix2 r (0 : Fin 1)) = (⊥ : EReal) := by
  unfold k1_pay4
  refine (congrFun (shapeCast_self _ shapeCasts_S1024x1_S1024x1) (ix2 r (0 : Fin 1))).trans ?_
  exact ofBits_neg_inf

theorem pay5_apply (r : Fin 1024) : k1_pay5 (F := Ideal) (ix2 r (0 : Fin 1)) = (0 : EReal) := by
  unfold k1_pay5
  refine (congrFun (shapeCast_self _ shapeCasts_S1024x1_S1024x1) (ix2 r (0 : Fin 1))).trans ?_
  exact Ideal.ofBits_zero_f32

theorem pay6_apply (r : Fin 1024) (d : Fin 256) : k1_pay6 (F := Ideal) (ix2 r d) = (0 : EReal) := by
  unfold k1_pay6
  refine (congrFun (shapeCast_self _ shapeCasts_S1024x256_S1024x256) (ix2 r d)).trans ?_
  exact Ideal.ofBits_zero_f32

end Cert.Val

end
-- ==== Proof.LibOnlineSoftmax.lean ====
/-
  A softmax row evaluated block by block.

  A row of scores S 0, S 1, … with values v 0, v 1, … is visited a block of keys at a time. The evaluation
  carries a maximum m, a denominator l and one numerator acc d per channel d. Visiting a block s of further
  scores with values vb replaces them by
      m'     = max m (max of the block's scores),
      l'     = exp (m − m') · l     + ∑ j, exp (s j − m'),
      acc' d = exp (m − m') · acc d + ∑ j, exp (s j − m') · vb j d.
  The invariant after the first n keys: m is a real number M, l = ∑ j < n, exp (S j − M) and
  acc d = ∑ j < n, exp (S j − M) · v j d. Which real number M is never matters: the factor exp (M − M')
  turns every old term exp (S j − M) into exp (S j − M') (the exponential of a sum), and the new block's terms
  join the sums. Before the first block m = −∞, l = 0, acc = 0: on the extended reals (−∞) − M' = −∞, the
  exponential of −∞ is 0 and 0 · 0 = 0, while the new maximum is real because the block is not empty. At the
  end acc d / l is the softmax row applied to v, the common factor exp (−M) cancelling.
-/
import Mathlib
import Idealize.ShloMosaic.PureOps.Ideal
import proofs.«156809_j36636071035664_2_alg».proof.Proof.LibSoftmax

noncomputable section

open scoped BigOperators

namespace Cert.Val

open Idealize.ShloMosaic

/-! ### Real numbers: partial sums of a row -/

/-- The denominator over the first `n` keys, every score shifted by `M`. -/
def den (S : ℕ → ℝ) (M : ℝ) (n : ℕ) : ℝ := ∑ j ∈ Finset.range n, Real.exp (S j - M)

/-- The numerator over the first `n` keys for one channel, every score shifted by `M`. -/
def num (S : ℕ → ℝ) (v : ℕ → ℝ) (M : ℝ) (n : ℕ) : ℝ := ∑ j ∈ Finset.range n, Real.exp (S j - M) * v j

theorem exp_rescale (M M' x : ℝ) : Real.exp (M - M') * Real.exp (x - M) = Real.exp (x - M') := by
  rw [← Real.exp_add]; ring_nf

/-- Changing the shift from `M` to `M'` multiplies the denominator by `exp (M − M')`. -/
theorem den_rescale (S : ℕ → ℝ) (M M' : ℝ) (n : ℕ) : Real.exp (M - M') * den S M n = den S M' n := by
  unfold den
  rw [Finset.mul_sum]
  exact Finset.sum_congr rfl fun j _ => exp_rescale M M' (S j)

theorem num_rescale (S : ℕ → ℝ) (v : ℕ → ℝ) (M M' : ℝ) (n : ℕ) :
    Real.exp (M - M') * num S v M n = num S v M' n := by
  unfold num
  rw [Finset.mul_sum]
  exact Finset.sum_congr rfl fun j _ => by rw [← mul_assoc, exp_rescale]

/-- A further block of `B` keys joins the denominator. -/
theorem den_add (S : ℕ → ℝ) (M : ℝ) (n B : ℕ) :
    den S M (n + B) = den S M n + ∑ j : Fin B, Real.exp (S (n + j.val) - M) := by
  unfold den
  rw [Finset.sum_range_add]
  exact congrArg _ (Finset.sum_range fun x => Real.exp (S (n + x) - M))

theorem num_add (S : ℕ → ℝ) (v : ℕ → ℝ) (M : ℝ) (n B : ℕ) :
    num S v M (n + B) = num S v M n + ∑ j : Fin B, Real.exp (S (n + j.val) - M) * v (n + j.val) := by
  unfold num
  rw [Finset.sum_range_add]
  exact congrArg _ (Finset.sum_range fun x => Real.exp (S (n + x) - M) * v (n + x))

theorem den_zero (S : ℕ → ℝ) (M : ℝ) : den S M 0 = 0 := by simp [den]

theorem num_zero (S : ℕ → ℝ) (v : ℕ → ℝ) (M : ℝ) : num S v M 0 = 0 := by simp [num]

theorem den_pos (S : ℕ → ℝ) (M : ℝ) {n : ℕ} (hn : 0 < n) : 0 < den S M n :=
  Finset.sum_pos (fun j _ => Real.exp_pos _) ⟨0, Finset.mem_range.mpr hn⟩

/-! ### Extended reals: the operations on coerced reals -/

theorem coe_max' (a b : ℝ) : max (a : EReal) (b : EReal) = ((max a b : ℝ) : EReal) :=
  (EReal.coe_strictMono.monotone.map_max).symm

/-- The maximum, started from −∞, of finitely many real numbers, at least one, is a real number. -/
theorem fold_max_coe {ι : Type*} (t : Finset ι) (ht : t.Nonempty) (s : ι → ℝ) :
    ∃ R : ℝ, t.fold max (⊥ : EReal) (fun j => ((s j : ℝ) : EReal)) = (R : EReal) := by
  classical
  have key : ∀ t : Finset ι, t.fold max (⊥ : EReal) (fun j => ((s j : ℝ) : EReal)) = ⊥ ∧ t = ∅ ∨
      ∃ R : ℝ, t.fold max (⊥ : EReal) (fun j => ((s j : ℝ) : EReal)) = (R : EReal) := by
    intro t
    induction t using Finset.induction_on with
    | empty => exact Or.inl ⟨Finset.fold_empty, rfl⟩
    | insert a t ha ih =>
      refine Or.inr ?_
      rw [Finset.fold_insert ha]
      rcases ih with ⟨h, _⟩ | ⟨R, h⟩
      · exact ⟨s a, by rw [h, max_eq_left bot_le]⟩
      · exact ⟨max (s a) R, by rw [h, coe_max']⟩
  rcases key t with ⟨_, h⟩ | h
  · exact absurd h ht.ne_empty
  · exact h

/-- The new maximum is real when the old one is. -/
theorem max_coe_fold {B : ℕ} [NeZero B] (M : ℝ) (s : Fin B → ℝ) :
    ∃ M' : ℝ, max (M : EReal) ((Finset.univ : Finset (Fin B)).fold max ⊥ (fun j => ((s j : ℝ) : EReal))) = (M' : EReal) := by
  obtain ⟨R, hR⟩ := fold_max_coe Finset.univ Finset.univ_nonempty s
  exact ⟨max M R, by rw [hR, coe_max']⟩

/-- The first maximum is real although the old one is −∞. -/
theorem max_bot_fold {B : ℕ} [NeZero B] (s : Fin B → ℝ) :
    ∃ M' : ℝ, max (⊥ : EReal) ((Finset.univ : Finset (Fin B)).fold max ⊥ (fun j => ((s j : ℝ) : EReal))) = (M' : EReal) := by
  obtain ⟨R, hR⟩ := fold_max_coe Finset.univ Finset.univ_nonempty s
  exact ⟨R, by rw [hR, max_eq_right bot_le]⟩

theorem exp_sub_coe (x y : ℝ) : Ideal.exp ((x : EReal) - (y : EReal)) = ((Real.exp (x - y) : ℝ) : EReal) := by
  rw [← EReal.coe_sub, Ideal.exp_coe]

/-- The denominator's update on real operands. -/
theorem l_update_coe {B : ℕ} (M M' L : ℝ) (s : Fin B → ℝ) :
    Ideal.exp ((M : EReal) - (M' : EReal)) * (L : EReal) + ∑ j, Ideal.exp (((s j : ℝ) : EReal) - (M' : EReal))
      = ((Real.exp (M - M') * L + ∑ j, Real.exp (s j - M') : ℝ) : EReal) := by
  simp only [exp_sub_coe, EReal.coe_add, EReal.coe_mul, Cert.Spec.coe_sum]

/-- A numerator's update on real operands. -/
theorem acc_update_coe {B : ℕ} (M M' A : ℝ) (s : Fin B → ℝ) (w : Fin B → ℝ) :
    Ideal.exp ((M : EReal) - (M' : EReal)) * (A : EReal)
        + ∑ j, Ideal.exp (((s j : ℝ) : EReal) - (M' : EReal)) * ((w j : ℝ) : EReal)
      = ((Real.exp (M - M') * A + ∑ j, Real.exp (s j - M') * w j : ℝ) : EReal) := by
  simp only [exp_sub_coe, EReal.coe_add, EReal.coe_mul, Cert.Spec.coe_sum]

/-- The denominator's first update: the old maximum is −∞ and the old denominator 0. -/
theorem l_first_coe {B : ℕ} (M' : ℝ) (s : Fin B → ℝ) :
    Ideal.exp ((⊥ : EReal) - (M' : EReal)) * 0 + ∑ j, Ideal.exp (((s j : ℝ) : EReal) - (M' : EReal))
      = ((∑ j, Real.exp (s j - M') : ℝ) : EReal) := by
  simp only [EReal.bot_sub, Ideal.exp_bot, mul_zero, zero_add, exp_sub_coe, Cert.Spec.coe_sum]

theorem acc_first_coe {B : ℕ} (M' : ℝ) (s : Fin B → ℝ) (w : Fin B → ℝ) :
    Ideal.exp ((⊥ : EReal) - (M' : EReal)) * 0
        + ∑ j, Ideal.exp (((s j : ℝ) : EReal) - (M' : EReal)) * ((w j : ℝ) : EReal)
      = ((∑ j, Real.exp (s j - M') * w j : ℝ) : EReal) := by
  simp only [EReal.bot_sub, Ideal.exp_bot, mul_zero, zero_add, exp_sub_coe, EReal.coe_mul, Cert.Spec.coe_sum]

/-- The quotient of two real numbers, the divisor not zero. -/
theorem div_coe_coe (A L : ℝ) (hL : L ≠ 0) : Ideal.div (A : EReal) (L : EReal) = ((A / L : ℝ) : EReal) := by
  rw [Ideal.div_coe hL, ← EReal.coe_mul]
  exact congrArg _ (by rw [mul_one_div])

/-! ### The invariant of one row -/

/-- What a row carries after its first `n` keys: a real maximum and the partial sums shifted by it. -/
def RowInv {D : ℕ} (S : ℕ → ℝ) (v : ℕ → Fin D → ℝ) (n : ℕ) (m l : EReal) (acc : Fin D → EReal) : Prop :=
  ∃ M : ℝ, m = (M : EReal) ∧ l = ((den S M n : ℝ) : EReal) ∧
    ∀ d, acc d = ((num S (fun j => v j d) M n : ℝ) : EReal)

/-- One block of `B` further keys. -/
theorem RowInv.step {D : ℕ} {S : ℕ → ℝ} {v : ℕ → Fin D → ℝ} {n : ℕ} {m l : EReal} {acc : Fin D → EReal}
    (h : RowInv S v n m l acc) {B : ℕ} [NeZero B] (s : Fin B → EReal) (vb : Fin B → Fin D → EReal)
    (hs : ∀ j, s j = ((S (n + j.val) : ℝ) : EReal)) (hv : ∀ j d, vb j d = ((v (n + j.val) d : ℝ) : EReal)) :
    RowInv S v (n + B) (max m ((Finset.univ : Finset (Fin B)).fold max ⊥ s))
      (Ideal.exp (m - max m ((Finset.univ : Finset (Fin B)).fold max ⊥ s)) * l
        + ∑ j, Ideal.exp (s j - max m ((Finset.univ : Finset (Fin B)).fold max ⊥ s)))
      (fun d => Ideal.exp (m - max m ((Finset.univ : Finset (Fin B)).fold max ⊥ s)) * acc d
        + ∑ j, Ideal.exp (s j - max m ((Finset.univ : Finset (Fin B)).fold max ⊥ s)) * vb j d) := by
  obtain ⟨M, rfl, rfl, hacc⟩ := h
  obtain rfl : s = fun j => ((S (n + j.val) : ℝ) : EReal) := funext hs
  obtain ⟨M', hM'⟩ := max_coe_fold M (fun j : Fin B => S (n + j.val))
  rw [hM']
  refine ⟨M', rfl, ?_, fun d => ?_⟩
  · rw [l_update_coe, den_rescale, den_add]
  · dsimp only
    rw [hacc d]
    simp only [hv]
    rw [acc_update_coe M M' _ (fun j : Fin B => S (n + j.val)) (fun j : Fin B => v (n + j.val) d),
      num_rescale, num_add]

/-- The first block of a row: from −∞, 0, 0. -/
theorem RowInv.first {D : ℕ} (S : ℕ → ℝ) (v : ℕ → Fin D → ℝ) {B : ℕ} [NeZero B] (s : Fin B → EReal)
    (vb : Fin B → Fin D → EReal)
    (hs : ∀ j, s j = ((S j.val : ℝ) : EReal)) (hv : ∀ j d, vb j d = ((v j.val d : ℝ) : EReal)) :
    RowInv S v B (max ⊥ ((Finset.univ : Finset (Fin B)).fold max ⊥ s))
      (Ideal.exp (⊥ - max ⊥ ((Finset.univ : Finset (Fin B)).fold max ⊥ s)) * 0
        + ∑ j, Ideal.exp (s j - max ⊥ ((Finset.univ : Finset (Fin B)).fold max ⊥ s)))
      (fun d => Ideal.exp (⊥ - max ⊥ ((Finset.univ : Finset (Fin B)).fold max ⊥ s)) * 0
        + ∑ j, Ideal.exp (s j - max ⊥ ((Finset.univ : Finset (Fin B)).fold max ⊥ s)) * vb j d) := by
  obtain rfl : s = fun j => ((S j.val : ℝ) : EReal) := funext hs
  obtain ⟨M', hM'⟩ := max_bot_fold (fun j : Fin B => S j.val)
  rw [hM']
  refine ⟨M', rfl, ?_, fun d => ?_⟩
  · rw [l_first_coe]
    have := den_add S M' 0 B
    rw [den_zero, zero_add] at this
    simp only [zero_add] at this
    rw [this]
  · dsimp only
    simp only [hv]
    rw [acc_first_coe M' (fun j : Fin B => S j.val) (fun j : Fin B => v j.val d)]
    have := num_add S (fun j => v j d) M' 0 B
    rw [num_zero, zero_add] at this
    simp only [zero_add] at this
    rw [this]

/-- The end of a row: numerator over denominator, the shift gone. -/
theorem RowInv.quot {D : ℕ} {S : ℕ → ℝ} {v : ℕ → Fin D → ℝ} {n : ℕ} {m l : EReal} {acc : Fin D → EReal}
    (h : RowInv S v n m l acc) (hn : 0 < n) (d : Fin D) :
    Ideal.div (acc d) l = ((num S (fun j => v j d) 0 n / den S 0 n : ℝ) : EReal) := by
  obtain ⟨M, rfl, rfl, hacc⟩ := h
  rw [hacc d, div_coe_coe _ _ (den_pos S M hn).ne']
  refine congrArg _ ?_
  rw [← num_rescale S _ M 0 n, ← den_rescale S M 0 n,
    mul_div_mul_left _ _ (Real.exp_pos _).ne']

/-- The whole row's quotient is the softmax row applied to the values. -/
theorem quot_eq_attn {a a' b : ℕ} (s : Fin a → Fin a' → ℝ) (vr : Cert.Spec.Mat a' b) (i : Fin a) (d : Fin b)
    (S : ℕ → ℝ) (v : ℕ → Fin b → ℝ) (hS : ∀ j : Fin a', S j.val = s i j) (hv : ∀ j : Fin a', v j.val d = vr j d) :
    num S (fun j => v j d) 0 a' / den S 0 a' = Cert.Spec.attn s vr i d := by
  unfold num den Cert.Spec.attn
  rw [Finset.sum_range, Finset.sum_range]
  simp only [hS, hv, sub_zero]

end Cert.Val

end
-- ==== Proof.Val.R1Blk.lean ====
/-
  One grid point of the blocked softmax on the blocks of three real arrays.

  The query block holds rows 1024 * qi … of a real matrix qr, the key and value blocks rows 2048 * kv … of real
  matrices kr and vr. Then every score of the block is a score of the whole arrays, and what the body leaves in
  the three carried buffers keeps every row's invariant: after the first 2048 * (kv + 1) keys the running maximum
  is a real number M, the denominator is ∑ exp (S i j − M) and the accumulator is ∑ exp (S i j − M) · vr j d over
  those keys, S = score qr kr and i = 1024 * qi + r. At the last point of a query block, where all 8192 keys
  have been visited, the stored quotient is the row of softmax attention.
-/
import proofs.«156809_j36636071035664_2_alg».proof.Proof.Val.Step
import proofs.«156809_j36636071035664_2_alg».proof.Proof.LibOnlineSoftmax

noncomputable section

open scoped BigOperators

namespace Cert.Val

open Cert.KernelIdeal Cert.KernelIdeal.Gen Idealize.ShloMosaic Idealize.ShloMosaic.ValueIdx

/-! ### The rows of the whole arrays, continued past the last key -/

/-- The scores of query row `i` against the keys in order, continued by 0 past the last key. -/
def Sx (qr kr : Cert.Spec.Mat 8192 256) (i : Fin 8192) (j : ℕ) : ℝ :=
  if h : j < 8192 then Cert.Spec.score qr kr i ⟨j, h⟩ else 0

/-- The value rows in order, continued by 0 past the last key. -/
def vx (vr : Cert.Spec.Mat 8192 256) (j : ℕ) (d : Fin 256) : ℝ := if h : j < 8192 then vr ⟨j, h⟩ d else 0

theorem Sx_of_lt (qr kr : Cert.Spec.Mat 8192 256) (i : Fin 8192) {j : ℕ} (h : j < 8192) :
    Sx qr kr i j = Cert.Spec.score qr kr i ⟨j, h⟩ := dif_pos h

theorem vx_of_lt (vr : Cert.Spec.Mat 8192 256) {j : ℕ} (h : j < 8192) (d : Fin 256) : vx vr j d = vr ⟨j, h⟩ d :=
  dif_pos h

/-! ### The blocks -/

/-- The three input blocks of a grid point are blocks of the real arrays: query rows from `1024 * qi`, key and
    value rows from `2048 * kv`. -/
structure BlkIn (qr kr vr : Cert.Spec.Mat 8192 256) (qi kv : ℕ) (x0 : FVec Ideal S1024x256 .bf16)
    (x1 x2 : FVec Ideal S2048x256 .bf16) : Prop where
  q : ∀ (r : Fin 1024) (d : Fin 256) (i : Fin 8192), i.val = 1024 * qi + r.val → x0 (ix2 r d) = ((qr i d : ℝ) : EReal)
  k : ∀ (j : Fin 2048) (d : Fin 256) (i : Fin 8192), i.val = 2048 * kv + j.val → x1 (ix2 j d) = ((kr i d : ℝ) : EReal)
  v : ∀ (j : Fin 2048) (d : Fin 256) (i : Fin 8192), i.val = 2048 * kv + j.val → x2 (ix2 j d) = ((vr i d : ℝ) : EReal)

/-- What the three carried buffers hold for query block `qi` after the first `n` keys: every row's invariant. -/
def BlkInv (qr kr vr : Cert.Spec.Mat 8192 256) (qi n : ℕ) (xs0 xs1 : FVec Ideal S1024x1 .f32)
    (xs2 : FVec Ideal S1024x256 .f32) : Prop :=
  ∀ (r : Fin 1024) (i : Fin 8192), i.val = 1024 * qi + r.val →
    RowInv (Sx qr kr i) (vx vr) n (xs0 (ix2 r (0 : Fin 1))) (xs1 (ix2 r (0 : Fin 1))) (fun d => xs2 (ix2 r d))

variable {qr kr vr : Cert.Spec.Mat 8192 256} {qi kv : ℕ} {x0 : FVec Ideal S1024x256 .bf16}
  {x1 x2 : FVec Ideal S2048x256 .bf16}

/-- A score of the block is the score of the whole arrays. -/
theorem BlkIn.sc_eq (hin : BlkIn qr kr vr qi kv x0 x1 x2) (hkv : kv < 4) (r : Fin 1024) (i : Fin 8192)
    (hi : i.val = 1024 * qi + r.val) (j : Fin 2048) :
    sc x0 x1 r j = ((Sx qr kr i (2048 * kv + j.val) : ℝ) : EReal) := by
  have hj : 2048 * kv + j.val < 8192 := by have := j.isLt; omega
  rw [Sx_of_lt qr kr i hj]
  unfold sc Cert.Spec.score
  rw [Cert.Spec.coe_sum]
  refine Finset.sum_congr rfl fun d _ => ?_
  rw [hin.q r d i hi, hin.k j d ⟨2048 * kv + j.val, hj⟩ rfl, EReal.coe_mul]

theorem BlkIn.v_eq (hin : BlkIn qr kr vr qi kv x0 x1 x2) (hkv : kv < 4) (j : Fin 2048) (d : Fin 256) :
    x2 (ix2 j d) = ((vx vr (2048 * kv + j.val) d : ℝ) : EReal) := by
  have hj : 2048 * kv + j.val < 8192 := by have := j.isLt; omega
  rw [vx_of_lt vr hj, hin.v j d ⟨2048 * kv + j.val, hj⟩ rfl]

/-- One grid point that is not the first of its query block. -/
theorem BlkInv.step (hin : BlkIn qr kr vr qi kv x0 x1 x2) (hkv : kv < 4) {xs0 xs1 : FVec Ideal S1024x1 .f32}
    {xs2 : FVec Ideal S1024x256 .f32} (h : BlkInv qr kr vr qi (2048 * kv) xs0 xs1 xs2) :
    BlkInv qr kr vr qi (2048 * kv + 2048) (k1_pay2 (F := Ideal) (k1_pay8 (F := Ideal) x0 x1 xs0))
      (k1_pay11 (F := Ideal) x0 x1 xs0 xs0 xs1) (k1_pay1 (F := Ideal) (k1_pay12 (F := Ideal) x0 x1 x2 xs0 xs0 xs2)) := by
  intro r i hi
  rw [pay2_eq, pay1_eq, pay8_apply, pay11_apply]
  simp only [pay12_apply]
  unfold mNew rowMax
  exact (h r i hi).step (fun j => sc x0 x1 r j) (fun j d => x2 (ix2 j d)) (fun j => hin.sc_eq hkv r i hi j)
    (fun j d => hin.v_eq hkv j d)

/-- The first grid point of a query block: the carried buffers are initialised first. -/
theorem BlkInv.first (hin : BlkIn qr kr vr qi 0 x0 x1 x2) :
    BlkInv qr kr vr qi 2048 (k1_pay2 (F := Ideal) (k1_pay8 (F := Ideal) x0 x1 (k1_pay4 (F := Ideal))))
      (k1_pay11 (F := Ideal) x0 x1 (k1_pay4 (F := Ideal)) (k1_pay4 (F := Ideal)) (k1_pay5 (F := Ideal)))
      (k1_pay1 (F := Ideal) (k1_pay12 (F := Ideal) x0 x1 x2 (k1_pay4 (F := Ideal)) (k1_pay4 (F := Ideal)) (k1_pay6 (F := Ideal)))) := by
  intro r i hi
  rw [pay2_eq, pay1_eq, pay8_apply, pay11_apply]
  simp only [pay12_apply]
  unfold mNew rowMax
  simp only [pay4_apply, pay5_apply, pay6_apply]
  exact RowInv.first (Sx qr kr i) (vx vr) (fun j => sc x0 x1 r j) (fun j d => x2 (ix2 j d))
    (fun j => by simpa using hin.sc_eq (by decide) r i hi j) (fun j d => by simpa using hin.v_eq (by decide) j d)

/-- The stored block at the last grid point of a query block: the rows of softmax attention. -/
theorem BlkInv.out {m l : FVec Ideal S1024x1 .f32} {acc : FVec Ideal S1024x256 .f32}
    (h : BlkInv qr kr vr qi 8192 m l acc) (r : Fin 1024) (d : Fin 256) (i : Fin 8192) (hi : i.val = 1024 * qi + r.val) :
    k1_pay3 (F := Ideal) acc l (ix2 r d) = ((Cert.Spec.attn (Cert.Spec.score qr kr) vr i d : ℝ) : EReal) := by
  rw [pay3_apply]
  refine ((h r i hi).quot (by decide) d).trans (congrArg _ ?_)
  exact quot_eq_attn (Cert.Spec.score qr kr) vr i d (Sx qr kr i) (vx vr) (fun j => Sx_of_lt qr kr i j.isLt)
    (fun j => vx_of_lt vr j.isLt d)

end Cert.Val

end
-- ==== Proof.Val.R1Read.lean ====
/-
  Where the blocks of region 1 sit in their arrays.

  At grid point t = 4 * qi + kv the query window's block is rows 1024 * qi … of its array, the key and value
  windows' blocks are rows 2048 * kv … of theirs, and the output window's block is rows 1024 * qi … of the result;
  all columns. The output is written back at the points with kv = 3, and those points' blocks cover the result:
  row i lies in the block of the point 4 * (i / 1024) + 3.
-/
import proofs.«156809_j36636071035664_2_alg».proof.Proof.FrKernelIdeal.R1Base
import proofs.«156809_j36636071035664_2_alg».proof.Proof.Val.R1Blk
import Idealize.ShloMosaic.Lib.Pipeline.Value
import Idealize.ShloMosaic.Lib.ValueIdx

set_option maxRecDepth 16384

noncomputable section

namespace Cert.Val

open Cert.KernelIdeal Cert.KernelIdeal.Gen Cert.KernelIdeal.Hand
open Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- The block indices of the four windows at every grid point, decided over the grid. -/
theorem idx_facts1 : ∀ t : Fin cfg1.N, win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = 0 :=
  (by decide +kernel : ∀ t : Fin grid1.N, _)

/-- The query block at point `t` is rows `1024 * (t / 4)` … of the query array. -/
theorem iblk1_0_apply (c : Dev nD) (t : Fin cfg1.N) (r : Fin 1024) (d : Fin 256) (i : Fin 8192)
    (hi : i.val = 1024 * (t.val / 4) + r.val) :
    iblk1 V c 0 t (ix2 r d) = V c main_v2_0 (ix2 i d) := by
  obtain ⟨e0, e1, -⟩ := idx_facts1 t
  unfold iblk1
  rw [View.read_apply]
  show V c main_v2_0 _ = V c main_v2_0 _
  refine congrArg _ ?_
  funext a
  apply Fin.ext
  match a with
  | ⟨0, _⟩ => show win1_0.index t (0 : Fin 2) * 1024 + 1 * r.val = i.val; rw [e0, hi]; omega
  | ⟨1, _⟩ => show win1_0.index t (1 : Fin 2) * 256 + 1 * d.val = d.val; rw [e1]; omega

/-- The key block at point `t` is rows `2048 * (t % 4)` … of the key array. -/
theorem iblk1_1_apply (c : Dev nD) (t : Fin cfg1.N) (j : Fin 2048) (d : Fin 256) (i : Fin 8192)
    (hi : i.val = 2048 * (t.val % 4) + j.val) :
    iblk1 V c 1 t (ix2 j d) = V c main_v2_1 (ix2 i d) := by
  obtain ⟨-, -, e0, e1, -⟩ := idx_facts1 t
  unfold iblk1
  rw [View.read_apply]
  show V c main_v2_1 _ = V c main_v2_1 _
  refine congrArg _ ?_
  funext a
  apply Fin.ext
  match a with
  | ⟨0, _⟩ => show win1_1.index t (0 : Fin 2) * 2048 + 1 * j.val = i.val; rw [e0, hi]; omega
  | ⟨1, _⟩ => show win1_1.index t (1 : Fin 2) * 256 + 1 * d.val = d.val; rw [e1]; omega

/-- The value block at point `t` is rows `2048 * (t % 4)` … of the value array. -/
theorem iblk1_2_apply (c : Dev nD) (t : Fin cfg1.N) (j : Fin 2048) (d : Fin 256) (i : Fin 8192)
    (hi : i.val = 2048 * (t.val % 4) + j.val) :
    iblk1 V c 2 t (ix2 j d) = V c main_v2_2 (ix2 i d) := by
  obtain ⟨-, -, -, -, e0, e1, -⟩ := idx_facts1 t
  unfold iblk1
  rw [View.read_apply]
  show V c main_v2_2 _ = V c main_v2_2 _
  refine congrArg _ ?_
  funext a
  apply Fin.ext
  match a with
  | ⟨0, _⟩ => show win1_2.index t (0 : Fin 2) * 2048 + 1 * j.val = i.val; rw [e0, hi]; omega
  | ⟨1, _⟩ => show win1_2.index t (1 : Fin 2) * 256 + 1 * d.val = d.val; rw [e1]; omega

/-- When the three arrays hold real matrices, the three blocks of a point are blocks of those matrices. -/
theorem blkIn (c : Dev nD) (qr kr vr : Cert.Spec.Mat 8192 256) (hq : V c main_v2_0 = Cert.Spec.arr qr)
    (hk : V c main_v2_1 = Cert.Spec.arr kr) (hv : V c main_v2_2 = Cert.Spec.arr vr) (t : Fin cfg1.N) :
    BlkIn qr kr vr (t.val / 4) (t.val % 4) (iblk1 V c 0 t) (iblk1 V c 1 t) (iblk1 V c 2 t) where
  q r d i hi := by rw [iblk1_0_apply V c t r d i hi, hq]; rfl
  k j d i hi := by rw [iblk1_1_apply V c t j d i hi, hk]; rfl
  v j d i hi := by rw [iblk1_2_apply V c t j d i hi, hv]; rfl

/-- The output block at point `t`, read out of any contents of the result array: rows `1024 * (t / 4)` …. -/
theorem blk3_read (c : Dev nD) (G : Buf (Elt Ideal) ((c : Thread nD τ).loc main_v3)) (t : Fin cfg1.N) (r : Fin 1024)
    (d : Fin 256) (i : Fin 8192) (hi : i.val = 1024 * (t.val / 4) + r.val) :
    ((cfg1.win 3).blk t).view.read (Elt Ideal) G (ix2 r d) = G (ix2 i d) := by
  obtain ⟨-, -, -, -, -, -, e0, e1⟩ := idx_facts1 t
  rw [View.read_apply]
  show G _ = G _
  refine congrArg _ ?_
  funext a
  apply Fin.ext
  match a with
  | ⟨0, _⟩ => show win1_3.index t (0 : Fin 2) * 1024 + 1 * r.val = i.val; rw [e0, hi]; omega
  | ⟨1, _⟩ => show win1_3.index t (1 : Fin 2) * 256 + 1 * d.val = d.val; rw [e1]; omega

/-- An index of the result is in point `t`'s output block iff each coordinate is in the block's range. -/
theorem mem_blk3 (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v3).slice (win1_3.rect t)).set ↔ _
  rw [View.set_slice_whole, Rect.mem_set_unit]
  exact Iff.rfl

/-- Every index of the result lies in the output block of a point that writes it back. -/
theorem cover3 (i : S8192x256.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 256 := (i 1).isLt
  refine ⟨⟨4 * ((i 0).val / 1024) + 3, by omega⟩, (flush1_3 _).mpr (by dsimp only; omega), ?_⟩
  rw [mem_blk3]
  obtain ⟨-, -, -, -, -, -, e0, e1⟩ := idx_facts1 ⟨4 * ((i 0).val / 1024) + 3, by omega⟩
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 256 ≤ (i 1).val ∧ (i 1).val < win1_3.index _ (1 : Fin 2) * 256 + 256
    rw [e1]; omega

end Cert.Val

end
-- ==== Proof.Val.R1Val.lean ====
/-
  Region 1 computes softmax attention.

  When the region finds real matrices qr, kr, vr in its three input arrays, the result array ends holding
  softmax of the scores (score qr kr) applied to vr. By induction over the grid points in order: after the body
  at point n = 4 * qi + kv the three carried buffers hold, for every row of query block qi, a real running maximum
  M and the partial sums ∑ exp (S i j − M) and ∑ exp (S i j − M) · vr j d over the first 2048 * (kv + 1) keys.
  A point with kv = 0 starts from the initialised buffers, every other point from what the point before left. At
  the points with kv = 3 all 8192 keys have been visited and the stored block is the quotient of the two sums, the
  row of softmax attention; those points write their block back, and their blocks cover the result.
-/
import proofs.«156809_j36636071035664_2_alg».proof.Proof.FrKernelIdeal.R1
import proofs.«156809_j36636071035664_2_alg».proof.Proof.Val.Pieces
import proofs.«156809_j36636071035664_2_alg».proof.Proof.Val.R1Read

set_option maxRecDepth 16384

noncomputable section

namespace Cert.Val

open Cert.KernelIdeal Cert.KernelIdeal.Gen Cert.KernelIdeal.Hand
open Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))
variable (qr kr vr : Cert.Spec.Mat 8192 256)

/-- The invariant does not depend on how the query block and the number of keys are written. -/
theorem BlkInv.cast {qr kr vr : Cert.Spec.Mat 8192 256} {qi qi' n n' : ℕ} {xs0 xs1 : FVec Ideal S1024x1 .f32}
    {xs2 : FVec Ideal S1024x256 .f32} (h : BlkInv qr kr vr qi n xs0 xs1 xs2) (e1 : qi = qi') (e2 : n = n') :
    BlkInv qr kr vr qi' n' xs0 xs1 xs2 := e1 ▸ e2 ▸ h

/-- The first point of a query block, the key block index written as a variable that is 0. -/
theorem BlkInv.first' {qr kr vr : Cert.Spec.Mat 8192 256} {qi kv : ℕ} {x0 : FVec Ideal S1024x256 .bf16}
    {x1 x2 : FVec Ideal S2048x256 .bf16} (hin : BlkIn qr kr vr qi kv x0 x1 x2) (hkv : kv = 0) :
    BlkInv qr kr vr qi (2048 * kv + 2048) (k1_pay2 (F := Ideal) (k1_pay8 (F := Ideal) x0 x1 (k1_pay4 (F := Ideal))))
      (k1_pay11 (F := Ideal) x0 x1 (k1_pay4 (F := Ideal)) (k1_pay4 (F := Ideal)) (k1_pay5 (F := Ideal)))
      (k1_pay1 (F := Ideal) (k1_pay12 (F := Ideal) x0 x1 x2 (k1_pay4 (F := Ideal)) (k1_pay4 (F := Ideal)) (k1_pay6 (F := Ideal)))) := by
  subst hkv
  exact BlkInv.first hin

/-- After the body at position `n` the carried buffers hold the invariant of query block `n / 4` after the first
    `2048 * (n % 4 + 1)` keys. -/
theorem inv_at (c : Dev nD) (hq : V c main_v2_0 = Cert.Spec.arr qr) (hk : V c main_v2_1 = Cert.Spec.arr kr)
    (hv : V c main_v2_2 = Cert.Spec.arr vr) : ∀ (n : ℕ) (hn : n < cfg1.N),
    BlkInv qr kr vr (n / 4) (2048 * (n % 4) + 2048) (outsAt1 V c n hn).2.1 (outsAt1 V c n hn).2.2.1
      (outsAt1 V c n hn).2.2.2
  | n, hn => by
    have hN : cfg1.N = 32 := N_1
    have hin := blkIn V c qr kr vr hq hk hv ⟨n, hn⟩
    by_cases h0 : n % 4 = 0
    · have h1 : ¬n % 4 = 3 := by omega
      rw [outsAt1_A V c ⟨n, hn⟩ h0 h1]
      dsimp only
      rw [sout1_A_0_eq, sout1_A_1_eq, sout1_A_2_eq]
      exact BlkInv.first' hin h0
    · have ih := (inv_at c hq hk hv (n - 1) (by omega)).cast (show (n - 1) / 4 = n / 4 by omega)
        (show 2048 * ((n - 1) % 4) + 2048 = 2048 * (n % 4) by omega)
      by_cases h1 : n % 4 = 3
      · rw [outsAt1_C V c ⟨n, hn⟩ h0 h1]
        dsimp only
        rw [sout1_C_0_eq, sout1_C_1_eq, sout1_C_2_eq]
        exact BlkInv.step hin (by omega) ih
      · rw [outsAt1_B V c ⟨n, hn⟩ h0 h1]
        dsimp only
        rw [sout1_B_0_eq, sout1_B_1_eq, sout1_B_2_eq]
        exact BlkInv.step hin (by omega) ih
  termination_by n => n
  decreasing_by omega

/-- What the result array ends holding: softmax attention of the three real matrices. -/
abbrev result (c : Dev nD) : Buf (Elt Ideal) ((c : Thread nD τ).loc main_v3) :=
  Cert.Spec.arr (Cert.Spec.attn (Cert.Spec.score qr kr) vr)

/-- At a point that writes the output back, the stored block is the block of softmax attention, entry by entry. -/
theorem out_at (c : Dev nD) (hq : V c main_v2_0 = Cert.Spec.arr qr) (hk : V c main_v2_1 = Cert.Spec.arr kr)
    (hv : V c main_v2_2 = Cert.Spec.arr vr) (t : Fin cfg1.N) (h1 : t.val % 4 = 3) (r : Fin 1024) (d : Fin 256)
    (i : Fin 8192) (hi : i.val = 1024 * (t.val / 4) + r.val) :
    (outsAt1 V c t.val t.isLt).1 (ix2 r d) = result qr kr vr c (ix2 i d) := by
  have h0 : ¬t.val % 4 = 0 := by omega
  have hinv := (inv_at V qr kr vr c hq hk hv t.val t.isLt).cast rfl (show 2048 * (t.val % 4) + 2048 = 8192 by omega)
  rw [outsAt1_C V c t h0 h1] at hinv ⊢
  dsimp only at hinv ⊢
  rw [sout1_C_0_eq, sout1_C_1_eq, sout1_C_2_eq] at hinv
  rw [out1_C_3_eq]
  exact hinv.out r d i hi

/-- What a point with key block 3 writes back is its block of softmax attention. -/
theorem flushed1_3_eq (c : Dev nD) (hq : V c main_v2_0 = Cert.Spec.arr qr) (hk : V c main_v2_1 = Cert.Spec.arr kr)
    (hv : V c main_v2_2 = Cert.Spec.arr vr) (t : Fin cfg1.N) (hf : (cfg1.win 3).flush t = true) :
    (dat1 V c).flushed 3 t = ((cfg1.win 3).blk t).view.read (Elt Ideal) (result qr kr vr c) := by
  have hN : cfg1.N = 32 := N_1
  have h1 : t.val % 4 = 3 := (flush1_3 t).mp hf
  have key : ∀ (r : Fin 1024) (d : Fin 256), (outsAt1 V c t.val t.isLt).1 (ix2 r d)
      = ((cfg1.win 3).blk t).view.read (Elt Ideal) (result qr kr vr c) (ix2 r d) := fun r d =>
    (out_at V qr kr vr c hq hk hv t h1 r d ⟨1024 * (t.val / 4) + r.val, by have := r.isLt; have := t.isLt; omega⟩ rfl).trans
      (blk3_read c (result qr kr vr c) t r d ⟨1024 * (t.val / 4) + r.val, by have := r.isLt; have := t.isLt; omega⟩ rfl).symm
  show (cfg1.win 3).cut (grid1.coords t) ((dat1 V c).after 3 t) = _
  rw [after1_3]
  funext y
  exact (congrArg (outsAt1 V c t.val t.isLt).1 (eq_ix2 y)).trans
    ((key (y 0) (y 1)).trans (congrArg (((cfg1.win 3).blk t).view.read (Elt Ideal) (result qr kr vr c)) (eq_ix2 y)).symm)

/-- THE RESULT of region 1: softmax attention of the matrices the region finds in its input arrays. -/
theorem arr1_3 (c : Dev nD) (hq : V c main_v2_0 = Cert.Spec.arr qr) (hk : V c main_v2_1 = Cert.Spec.arr kr)
    (hv : V c main_v2_2 = Cert.Spec.arr vr) :
    (dat1 (F := Ideal) V c).arrAt 3 cfg1.N = Cert.Spec.arr (Cert.Spec.attn (Cert.Spec.score qr kr) vr) :=
  (dat1 V c).arrAt_eq_of_cover 3 (result qr kr vr c) (fun t hf => flushed1_3_eq V qr kr vr c hq hk hv t hf) cover3

end Cert.Val

end
-- ==== Proof.Val.RefVal.lean ====
/-
  The reference program, read as the mathematics of Spec.

  With real inputs (the reshaped argument x and the three weights), the value the reference holds before the
  final reshape and transpose is, entry by entry, the coercion of
      attn (scores / 16) (x·Wv),   scores i j = ∑ d, (x·Wq) i d * (x·Wk) j d.
  The reference subtracts each row's maximum before exponentiating. That maximum is never computed here: it is a
  fold of max from −∞ over a nonempty row of real numbers, hence the coercion of a real number, and softmax does
  not change when a real number is subtracted from every score of a row (Spec.attn_normalised). The divisor
  sqrt 256 is 16, and dividing by a nonzero real is multiplying by its reciprocal.
-/
import proofs.«156809_j36636071035664_2_alg».proof.Proof.Gen.ReferenceIdeal.Read
import proofs.«156809_j36636071035664_2_alg».proof.Proof.Val.Spec
import Idealize.ShloMosaic.PureOps.Ideal.Laws

noncomputable section

open scoped BigOperators

namespace Cert.Val

open Cert.ReferenceIdeal Cert.ReferenceIdeal.Gen Cert.ReferenceIdeal.Read
open Idealize.ShloMosaic Idealize.ShloMosaic.ValueIdx Idealize.ShloMosaic.StableHlo
open Cert.Spec

namespace Ref

/-! ## The generated index maps at coordinates -/

theorem lidx2 (p : Fin 8192) (q k : Fin 256) : lidx_main_v2 (ix2 p q) k = ix2 p k :=
  funext fun a => Fin.ext (by match a with | ⟨0, _⟩ => rfl | ⟨1, _⟩ => rfl)
theorem ridx2 (p : Fin 8192) (q k : Fin 256) : ridx_main_v2 (ix2 p q) k = ix2 k q :=
  funext fun a => Fin.ext (by match a with | ⟨0, _⟩ => rfl | ⟨1, _⟩ => rfl)
theorem lidx3 (p : Fin 8192) (q k : Fin 256) : lidx_main_v3 (ix2 p q) k = ix2 p k :=
  funext fun a => Fin.ext (by match a with | ⟨0, _⟩ => rfl | ⟨1, _⟩ => rfl)
theorem ridx3 (p : Fin 8192) (q k : Fin 256) : ridx_main_v3 (ix2 p q) k = ix2 k q :=
  funext fun a => Fin.ext (by match a with | ⟨0, _⟩ => rfl | ⟨1, _⟩ => rfl)
theorem lidx4 (p : Fin 8192) (q k : Fin 256) : lidx_main_v4 (ix2 p q) k = ix2 p k :=
  funext fun a => Fin.ext (by match a with | ⟨0, _⟩ => rfl | ⟨1, _⟩ => rfl)
theorem ridx4 (p : Fin 8192) (q k : Fin 256) : ridx_main_v4 (ix2 p q) k = ix2 k q :=
  funext fun a => Fin.ext (by match a with | ⟨0, _⟩ => rfl | ⟨1, _⟩ => rfl)
theorem lidx6 (i j : Fin 8192) (k : Fin 256) : lidx_main_v6 (ix2 i j) k = ix2 i k :=
  funext fun a => Fin.ext (by match a with | ⟨0, _⟩ => rfl | ⟨1, _⟩ => rfl)
/-- The right operand of the score product is the transposed key projection: entry (k, j) of it is entry (j, k). -/
theorem ridx6 (i j : Fin 8192) (k : Fin 256) : idx_main_v5 (ridx_main_v6 (ix2 i j) k) = ix2 j k :=
  funext fun a => Fin.ext (by match a with | ⟨0, _⟩ => rfl | ⟨1, _⟩ => rfl)
theorem idx14 (i j : Fin 8192) : idx_main_v13 (idx_main_v14 (ix2 i j)) = ix1 i :=
  funext fun a => Fin.ext (by match a with | ⟨0, _⟩ => rfl)
theorem idx17 (i k : Fin 8192) : idx_main_v17 (ix1 i) k = ix2 i k :=
  funext fun a => Fin.ext (by match a with | ⟨0, _⟩ => rfl | ⟨1, _⟩ => rfl)
theorem idx19 (i j : Fin 8192) : idx_main_v18 (idx_main_v19 (ix2 i j)) = ix1 i :=
  funext fun a => Fin.ext (by match a with | ⟨0, _⟩ => rfl)
theorem lidx21 (i : Fin 8192) (d : Fin 256) (k : Fin 8192) : lidx_main_v21 (ix2 i d) k = ix2 i k :=
  funext fun a => Fin.ext (by match a with | ⟨0, _⟩ => rfl | ⟨1, _⟩ => rfl)
theorem ridx21 (i : Fin 8192) (d : Fin 256) (k : Fin 8192) : ridx_main_v21 (ix2 i d) k = ix2 k d :=
  funext fun a => Fin.ext (by match a with | ⟨0, _⟩ => rfl | ⟨1, _⟩ => rfl)

/-! ## The three constant words -/

/-- The word 0x43800000 denotes 256. -/
theorem ofBits_256 : Ideal.ofBits .f32 0x43800000#32 = ((256 : ℝ) : EReal) := by
  simp [Ideal.ofBits, Ideal.ieee]
  rw [← EReal.coe_mul]
  exact congrArg _ (by norm_num)

/-- The word 0xFF800000 denotes −∞. -/
theorem ofBits_neg_inf : Ideal.ofBits .f32 0xFF800000#32 = (⊥ : EReal) := by
  simp [Ideal.ofBits, Ideal.ieee]

/-- sqrt 256 = 16. -/
theorem sqrt_256 : Ideal.sqrt ((256 : ℝ) : EReal) = ((16 : ℝ) : EReal) := by
  rw [Ideal.sqrt_coe, if_neg (by norm_num)]
  refine congrArg _ ?_
  rw [show (256 : ℝ) = 16 ^ 2 by norm_num]
  exact Real.sqrt_sq (by norm_num)

/-! ## The stages -/

section Stages

variable (x0 : (⟨S1x32x256x16x16, .f32⟩ : BufTy).Contents (Elt Ideal))
variable (x1 x2 x3 : (⟨S256x256, .f32⟩ : BufTy).Contents (Elt Ideal))
variable (xr : Mat 8192 256) (wq wk wv : Mat 256 256)

/-- The query projection (unscaled in the reference). -/
theorem v2_eq (hx : val_main_v1 (F := Ideal) x0 = arr xr) (h1 : x1 = arr wq) :
    val_main_v2 (F := Ideal) x0 x1 = arr (mm xr wq) := by
  funext y
  obtain ⟨p, q, rfl⟩ : ∃ (p : Fin 8192) (q : Fin 256), y = ix2 p q := ⟨y 0, y 1, eq_ix2 y⟩
  rw [val_main_v2_apply, hx, h1]
  simp only [lidx2, ridx2, arr_ix2, mm, coe_sum, EReal.coe_mul]

/-- The key projection. -/
theorem v3_eq (hx : val_main_v1 (F := Ideal) x0 = arr xr) (h2 : x2 = arr wk) :
    val_main_v3 (F := Ideal) x0 x2 = arr (mm xr wk) := by
  funext y
  obtain ⟨p, q, rfl⟩ : ∃ (p : Fin 8192) (q : Fin 256), y = ix2 p q := ⟨y 0, y 1, eq_ix2 y⟩
  rw [val_main_v3_apply, hx, h2]
  simp only [lidx3, ridx3, arr_ix2, mm, coe_sum, EReal.coe_mul]

/-- The value projection. -/
theorem v4_eq (hx : val_main_v1 (F := Ideal) x0 = arr xr) (h3 : x3 = arr wv) :
    val_main_v4 (F := Ideal) x0 x3 = arr (mm xr wv) := by
  funext y
  obtain ⟨p, q, rfl⟩ : ∃ (p : Fin 8192) (q : Fin 256), y = ix2 p q := ⟨y 0, y 1, eq_ix2 y⟩
  rw [val_main_v4_apply, hx, h3]
  simp only [lidx4, ridx4, arr_ix2, mm, coe_sum, EReal.coe_mul]

/-- The divisor: sqrt of the word for 256, that is 16. -/
theorem v7_eq (i : S_.Idx) : val_main_v7 (F := Ideal) i = ((16 : ℝ) : EReal) := by
  rw [val_main_v7_apply, val_main_cst_apply, Ideal.hostUnary_sqrt_def, Ideal.ofBits_def, ofBits_256, sqrt_256]

/-- The scaled scores: the inner products of query rows with key rows, over 16. -/
theorem v9_eq (h2 : val_main_v2 (F := Ideal) x0 x1 = arr (mm xr wq)) (h3 : val_main_v3 (F := Ideal) x0 x2 = arr (mm xr wk)) :
    val_main_v9 (F := Ideal) x0 x1 x2 = arr (fun i j => score (mm xr wq) (mm xr wk) i j / 16) := by
  funext y
  obtain ⟨i, j, rfl⟩ : ∃ (i j : Fin 8192), y = ix2 i j := ⟨y 0, y 1, eq_ix2 y⟩
  rw [val_main_v9_apply, val_main_v8_apply, v7_eq, Ideal.hostDivf_def, Ideal.div_coe (by norm_num : (16 : ℝ) ≠ 0),
    val_main_v6_apply, arr_ix2]
  have hs : (∑ k : Fin 256, val_main_v2 (F := Ideal) x0 x1 (lidx_main_v6 (ix2 i j) k) * val_main_v5 (F := Ideal) x0 x2 (ridx_main_v6 (ix2 i j) k))
      = ((score (mm xr wq) (mm xr wk) i j : ℝ) : EReal) := by
    simp only [val_main_v5_apply, lidx6, ridx6, h2, h3, arr_ix2, score, coe_sum, EReal.coe_mul]
  rw [hs, ← EReal.coe_mul]
  exact congrArg _ (by ring)

/-- A fold of max from −∞ over a nonempty finite family of real numbers is a real number. -/
theorem fold_max_real {ι : Type*} (f : ι → EReal) (hf : ∀ k, ∃ r : ℝ, f k = (r : EReal)) (s : Finset ι) (hs : s.Nonempty) :
    ∃ r : ℝ, s.fold (FloatOps.maximumf (F := Ideal) (φ := .f32)) (⊥ : EReal) f = (r : EReal) := by
  induction hs using Finset.Nonempty.cons_induction with
  | singleton a =>
    obtain ⟨r, hr⟩ := hf a
    exact ⟨r, by rw [Finset.fold_singleton, hr]; exact max_bot_right _⟩
  | cons a s ha hs ih =>
    obtain ⟨r, hr⟩ := hf a
    obtain ⟨r', hr'⟩ := ih
    exact ⟨max r r', by rw [Finset.fold_cons, hr, hr']; exact (EReal.coe_strictMono.monotone.map_max).symm⟩

/-- The row maxima the reference subtracts are real numbers (which ones is immaterial). -/
theorem v12_real (S : Mat 8192 8192) (h9 : val_main_v9 (F := Ideal) x0 x1 x2 = arr S) :
    ∃ M : Fin 8192 → ℝ, ∀ i : Fin 8192, val_main_v12 (F := Ideal) x0 x1 x2 (ix1 i) = ((M i : ℝ) : EReal) := by
  have hred : S8192x8192.Reduces [1] S8192 := by decide
  have key : ∀ i : Fin 8192, ∃ r : ℝ, val_main_v12 (F := Ideal) x0 x1 x2 (ix1 i) = (r : EReal) := by
    intro i
    rw [val_main_v12_apply, val_main_v11_apply, val_main_cst_1_apply]
    unfold val_main_v10
    rw [h9, Host.reduce_eq_fold_single (α := Ideal .f32) (FloatOps.maximumf (F := Ideal) (φ := .f32)) _ _ reducesTo_S8192x8192_S8192_d1 hred h_S_,
      val_main_cst_0_apply, Ideal.ofBits_def, ofBits_neg_inf]
    obtain ⟨r, hr⟩ := fold_max_real (arr S ∘ hred.lift (ix1 i)) (fun k => ⟨_, rfl⟩) Finset.univ
      ⟨⟨0, by decide⟩, Finset.mem_univ _⟩
    exact ⟨r, by rw [hr, Ideal.maximumf_def]; exact max_eq_right bot_le⟩
  choose M hM using key
  exact ⟨M, hM⟩

variable (S : Mat 8192 8192) (M : Fin 8192 → ℝ)

/-- The exponentials of the shifted scores. -/
theorem v16_eq (h9 : val_main_v9 (F := Ideal) x0 x1 x2 = arr S)
    (hM : ∀ i : Fin 8192, val_main_v12 (F := Ideal) x0 x1 x2 (ix1 i) = ((M i : ℝ) : EReal)) (i j : Fin 8192) :
    val_main_v16 (F := Ideal) x0 x1 x2 (ix2 i j) = ((Real.exp (S i j - M i) : ℝ) : EReal) := by
  rw [val_main_v16_apply, val_main_v15_apply, val_main_v14_apply, val_main_v13_apply, idx14, hM, h9, arr_ix2,
    Ideal.hostUnary_exp_def, Ideal.subf_def, ← EReal.coe_sub, Ideal.exp_coe]

/-- The row sums of the exponentials. -/
theorem v17_eq (h9 : val_main_v9 (F := Ideal) x0 x1 x2 = arr S)
    (hM : ∀ i : Fin 8192, val_main_v12 (F := Ideal) x0 x1 x2 (ix1 i) = ((M i : ℝ) : EReal)) (i : Fin 8192) :
    val_main_v17 (F := Ideal) x0 x1 x2 (ix1 i) = ((∑ k : Fin 8192, Real.exp (S i k - M i) : ℝ) : EReal) := by
  rw [val_main_v17_apply, val_main_cst_2_apply, Ideal.ofBits_def, Ideal.ofBits_zero_f32, zero_add, coe_sum]
  exact Finset.sum_congr rfl fun k _ => by rw [idx17, v16_eq x0 x1 x2 S M h9 hM]

/-- The softmax weights. -/
theorem v20_eq (h9 : val_main_v9 (F := Ideal) x0 x1 x2 = arr S)
    (hM : ∀ i : Fin 8192, val_main_v12 (F := Ideal) x0 x1 x2 (ix1 i) = ((M i : ℝ) : EReal)) (i j : Fin 8192) :
    val_main_v20 (F := Ideal) x0 x1 x2 (ix2 i j)
      = ((Real.exp (S i j - M i) / ∑ k : Fin 8192, Real.exp (S i k - M i) : ℝ) : EReal) := by
  rw [val_main_v20_apply, val_main_v19_apply, val_main_v18_apply, idx19, v17_eq x0 x1 x2 S M h9 hM,
    v16_eq x0 x1 x2 S M h9 hM, Ideal.hostDivf_def, Ideal.div_coe (sum_exp_pos fun k => S i k - M i).ne', ← EReal.coe_mul]
  exact congrArg _ (by ring)

end Stages

end Ref

open Ref

/-! ## The reference is Spec -/

/-- With real inputs, the reference's value before its final reshape and transpose is softmax attention of the
    scores over 16, entry by entry. -/
theorem ref_eq (x0 : (⟨S1x32x256x16x16, .f32⟩ : BufTy).Contents (Elt Ideal))
    (x1 x2 x3 : (⟨S256x256, .f32⟩ : BufTy).Contents (Elt Ideal))
    (xr : Mat 8192 256) (wq wk wv : Mat 256 256)
    (hx : val_main_v1 (F := Ideal) x0 = arr xr) (h1 : x1 = arr wq) (h2 : x2 = arr wk) (h3 : x3 = arr wv) :
    val_main_v21 (F := Ideal) x0 x1 x2 x3
      = arr (attn (fun i j => score (mm xr wq) (mm xr wk) i j / 16) (mm xr wv)) := by
  have e2 := v2_eq x0 x1 xr wq hx h1
  have e3 := v3_eq x0 x2 xr wk hx h2
  have e4 := v4_eq x0 x3 xr wv hx h3
  have e9 := v9_eq x0 x1 x2 xr wq wk e2 e3
  obtain ⟨M, hM⟩ := v12_real x0 x1 x2 _ e9
  funext y
  obtain ⟨i, d, rfl⟩ : ∃ (i : Fin 8192) (d : Fin 256), y = ix2 i d := ⟨y 0, y 1, eq_ix2 y⟩
  rw [val_main_v21_apply, arr_ix2, ← attn_normalised _ _ M i d, coe_sum]
  refine Finset.sum_congr rfl fun k _ => ?_
  rw [lidx21, ridx21, v20_eq x0 x1 x2 _ M e9 hM, e4, arr_ix2, EReal.coe_mul]

end Cert.Val

end
-- ==== Proof.Val.Pre.lean ====
/-
  From the precondition to real matrices.

  The precondition says of each of the four arguments that every entry has absolute value below +∞: per array
  a comparison |x| < (the word 0x7F800000 = +∞) entry by entry, all of them conjoined (a reduction by "and" from 1),
  and the four results conjoined. On the extended reals max x (−x) < ⊤ excludes ⊤ and ⊥, so every entry is the
  coercion of a real number. Choosing those numbers gives the three weight matrices, and, read through the
  reference's first two layout operations (transpose, reshape to [8192,256]), the matrix x.
-/
import proofs.«156809_j36636071035664_2_alg».proof.Proof.Gen.ReferenceIdeal.Read
import proofs.«156809_j36636071035664_2_alg».proof.Proof.Gen.Pre_finite_inputs
import proofs.«156809_j36636071035664_2_alg».proof.Proof.Val.Spec
import Idealize.ShloMosaic.Lib.ReduceAll
import Idealize.ShloMosaic.Lib.IdealHost
import Idealize.ShloMosaic.PureOps.Ideal.Laws

noncomputable section

namespace Cert.Val

open Cert.ReferenceIdeal Cert.ReferenceIdeal.Gen Cert.ReferenceIdeal.Read
open Idealize.ShloMosaic Idealize.ShloMosaic.ValueIdx Idealize.ShloMosaic.StableHlo
open Cert.Spec

namespace Pre

/-- The word 0x7F800000 denotes +∞. -/
theorem ofBits_pos_inf : Ideal.ofBits .f32 0x7F800000#32 = (⊤ : EReal) := by
  simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_pos_inf] at h
  have hlt : max x (-x) < ⊤ := by
    by_contra hn
    simp [Ideal.cmp, hn] at h
  induction x using EReal.rec with
  | bot => simp at hlt
  | coe r => exact ⟨r, rfl⟩
  | top => simp at hlt

/-- One argument's part of the precondition: if all entries of an array pass the comparison, all are real. -/
theorem real_entries {s : Shape} {axes : List (Fin s.rank)} (a : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf a) (broadcastInDim s ![] hb (constant (F := Ideal) (⟨0, ![]⟩ : Shape) .f32 0x7F800000#32)))
      (constantI (⟨0, ![]⟩ : Shape) 1 1#1) hr hu ix0 = 1#1) (i : s.Idx) : ∃ r : ℝ, a i = (r : EReal) := by
  have h := Host.reduce_andi_eq_one _ _ hr hu ix0 e i (funext fun d => d.elim0)
  rw [cmpf_apply, broadcastInDim_scalar_apply] at h
  exact real_of_abs_lt_inf (a i) h

end Pre

open Pre

/-- Under the precondition the reshaped argument and the three weights are arrays of real numbers. -/
theorem real_of_pre (a0 : (⟨S1x32x256x16x16, .f32⟩ : BufTy).Contents (Elt Ideal))
    (a1 a2 a3 : (⟨S256x256, .f32⟩ : BufTy).Contents (Elt Ideal))
    (h : Cert.Pre_finite_inputs.fn (F := Ideal) a0 a1 a2 a3 = fun _ => 1#1) :
    (∃ xr : Mat 8192 256, val_main_v1 (F := Ideal) a0 = arr xr) ∧ (∃ wq : Mat 256 256, a1 = arr wq)
      ∧ (∃ wk : Mat 256 256, a2 = arr wk) ∧ (∃ wv : Mat 256 256, a3 = arr wv) := by
  have e := congrFun h ix0
  dsimp only [Cert.Pre_finite_inputs.fn, Cert.Pre_finite_inputs.fn_part1] at e
  change IntOp.andi (IntOp.andi (IntOp.andi _ _) _) _ = 1#1 at e
  obtain ⟨e012, e3⟩ := IntOp.andi_eq_one.1 e
  obtain ⟨e01, e2⟩ := IntOp.andi_eq_one.1 e012
  obtain ⟨e0, e1⟩ := IntOp.andi_eq_one.1 e01
  have r0 := real_entries a0 _ _ _ e0
  have r1 := real_entries a1 _ _ _ e1
  have r2 := real_entries a2 _ _ _ e2
  have r3 := real_entries a3 _ _ _ e3
  choose f0 hf0 using r0
  choose f1 hf1 using r1
  choose f2 hf2 using r2
  choose f3 hf3 using r3
  refine ⟨⟨fun p q => f0 (idx_main_v0 (idx_main_v1 (ix2 p q))), ?_⟩, ⟨fun p q => f1 (ix2 p q), ?_⟩,
    ⟨fun p q => f2 (ix2 p q), ?_⟩, ⟨fun p q => f3 (ix2 p q), ?_⟩⟩
  · funext y
    obtain ⟨p, q, rfl⟩ : ∃ (p : Fin 8192) (q : Fin 256), y = ix2 p q := ⟨y 0, y 1, eq_ix2 y⟩
    rw [val_main_v1_apply, val_main_v0_apply, arr_ix2]
    exact hf0 _
  · funext y
    obtain ⟨p, q, rfl⟩ : ∃ (p q : Fin 256), y = ix2 p q := ⟨y 0, y 1, eq_ix2 y⟩
    rw [arr_ix2]; exact hf1 _
  · funext y
    obtain ⟨p, q, rfl⟩ : ∃ (p q : Fin 256), y = ix2 p q := ⟨y 0, y 1, eq_ix2 y⟩
    rw [arr_ix2]; exact hf2 _
  · funext y
    obtain ⟨p, q, rfl⟩ : ∃ (p q : Fin 256), y = ix2 p q := ⟨y 0, y 1, eq_ix2 y⟩
    rw [arr_ix2]; exact hf3 _

end Cert.Val

end
-- ==== Proof.lean ====
/-
  Self-attention over N = 8192 positions with 256 channels: out = softmax(Q Kᵀ / 16) V with Q = x Wq, K = x Wk,
  V = x Wv, where x is the [1,32,256,16,16] input with its channel axis moved last and its other axes flattened, and
  the result is re-laid the opposite way.

  The kernel program evaluates it in two grid regions. The first projects x block by block (2048 rows at a time)
  and folds the factor 1/16 into Q. The second walks, for each block of 1024 queries, the four blocks of 2048 keys,
  carrying per query row a running maximum m, a running denominator l and a running numerator acc: a new block
  rescales l and acc by exp(m − m') to the new maximum m' and adds its own terms exp(s − m'); after the last block
  the row is acc / l. The reference forms all 8192 × 8192 scores, divides them by sqrt 256, subtracts each row's
  maximum, exponentiates, normalises and multiplies by V.

  On the extended reals, with every input a real number, both are the same matrix: subtracting ANY real number
  from a row's scores leaves exp(s − M)·v summed over the row, divided by exp(s − M) summed over the row, unchanged,
  so neither the running maxima nor the row maxima have to be computed — only known to be real, which they are
  because every block of keys is nonempty. Multiplying the queries by 1/16 divides the scores by 16 = sqrt 256;
  that step distributes a real factor over a finite sum, which is where the inputs' finiteness is used.

  The three frame claims: the reference is a straight line of host operations (its run); the kernel program's two
  regions are run by the pipeline's launch theorem, each region's body once per control case, the second region's
  three scratch buffers carried from point to point in the region invariant.
-/
import proofs.«156809_j36636071035664_2_alg».proof.Defs
import proofs.«156809_j36636071035664_2_alg».proof.Proof.Gen.Kernel
import proofs.«156809_j36636071035664_2_alg».proof.Proof.Gen.KernelIdeal
import proofs.«156809_j36636071035664_2_alg».proof.Proof.Gen.KernelIdeal.Regions
import proofs.«156809_j36636071035664_2_alg».proof.Proof.Gen.ReferenceIdeal
import proofs.«156809_j36636071035664_2_alg».proof.Proof.Gen.ReferenceIdeal.Run
import proofs.«156809_j36636071035664_2_alg».proof.Proof.Gen.ReferenceIdeal.Read
import proofs.«156809_j36636071035664_2_alg».proof.Proof.Gen.Pre_finite_inputs
import proofs.«156809_j36636071035664_2_alg».proof.Proof.FrKernel.Run
import proofs.«156809_j36636071035664_2_alg».proof.Proof.FrKernelIdeal.Run
import proofs.«156809_j36636071035664_2_alg».proof.Proof.Val.Spec
import proofs.«156809_j36636071035664_2_alg».proof.Proof.Val.HostEnds
import proofs.«156809_j36636071035664_2_alg».proof.Proof.Val.R0Val
import proofs.«156809_j36636071035664_2_alg».proof.Proof.Val.R1Val
import proofs.«156809_j36636071035664_2_alg».proof.Proof.Val.RefVal
import proofs.«156809_j36636071035664_2_alg».proof.Proof.Val.Pre
import Idealize.ShloMosaic.Adequacy
import Idealize.ShloMosaic.Init

noncomputable section

namespace Cert.Proof

open Idealize.ShloMosaic Idealize.ShloMosaic.TcCoe Idealize.SL.Sem
open Cert.Spec

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section Key
open Cert.KernelIdeal Cert.KernelIdeal.Gen Cert.KernelIdeal.Hand

/-- Scaling the queries by 1/16 before the inner products is dividing the scores by 16. -/
theorem scores_eq (xr : Mat 8192 256) (wq wk : Mat 256 256) :
    score (scale (mm xr wq) (1 / 16)) (mm xr wk) = fun i j => score (mm xr wq) (mm xr wk) i j / 16 := by
  funext i j
  rw [score_scale]; ring

variable (m : (ℓ : Loc nD τ sig) → Buf (Elt Ideal) ℓ) (ρ : Dev nD → PrngReg)

theorem V1_v1 (c : Dev nD) : V1 m ρ c main_v1 = Cert.ReferenceIdeal.Read.val_main_v1 (F := Ideal) (m ((c : Thread nD τ).loc main_arg0)) :=
  Cert.Val.head_eq (W0 m ρ c)

theorem V1_arg (c : Dev nD) (r : Ref sig .tc) (h : r ∉ hostOps0_W) : V1 m ρ c r = m ((c : Thread nD τ).loc r) :=
  StableHlo.after_of_writes_sub hostOps0 _ hostOps0_writes h

/-- The kernel program's result buffer, after the run, under finite inputs given as real matrices. -/
theorem kernel_result (c : Dev nD) (xr : Mat 8192 256) (wq wk wv : Mat 256 256)
    (hx : Cert.ReferenceIdeal.Read.val_main_v1 (F := Ideal) (m ((c : Thread nD τ).loc main_arg0)) = arr xr)
    (h1 : m ((c : Thread nD τ).loc main_arg1) = arr wq) (h2 : m ((c : Thread nD τ).loc main_arg2) = arr wk)
    (h3 : m ((c : Thread nD τ).loc main_arg3) = arr wv) :
    W4 m ρ c (Proc.devRef .tc main_v5)
      = Cert.Val.tail (arr (attn (fun i j => score (mm xr wq) (mm xr wk) i j / 16) (mm xr wv))) := by
  have hq : V2 m ρ c main_v2_0 = arr (scale (mm xr wq) (1 / 16)) := by
    refine (W2_arr m ρ c 4).trans ?_
    rw [Cert.Val.arr0_4, V1_v1, V1_arg m ρ c main_arg1 (by decide), hx, h1]
    exact projScaled_arr xr wq
  have hk : V2 m ρ c main_v2_1 = arr (mm xr wk) := by
    refine (W2_arr m ρ c 5).trans ?_
    rw [Cert.Val.arr0_5, V1_v1, V1_arg m ρ c main_arg2 (by decide), hx, h2]
    exact proj_arr xr wk
  have hv : V2 m ρ c main_v2_2 = arr (mm xr wv) := by
    refine (W2_arr m ρ c 6).trans ?_
    rw [Cert.Val.arr0_6, V1_v1, V1_arg m ρ c main_arg3 (by decide), hx, h3]
    exact proj_arr xr wv
  rw [show W4 m ρ c (Proc.devRef .tc main_v5) = Cert.Val.tail (W3 m ρ c (Proc.devRef .tc main_v3)) from Cert.Val.tail_eq (W3 m ρ c)]
  refine congrArg Cert.Val.tail ?_
  refine (W3_arr m ρ c 3).trans ?_
  rw [Cert.Val.arr1_3 (V2 m ρ) _ _ _ c hq hk hv, scores_eq]

end Key

/-- At the ideal instance both programs end with softmax((x·Wq)(x·Wk)ᵀ/16)·(x·Wv), re-laid by the shared closing
    stretch: the kernel program's blocked evaluation with the scale folded into the queries, and the reference's
    direct one, of arguments that agree and are finite. -/
theorem algebraic : Cert.algebraic_KernelIdeal_ReferenceIdeal := by
  intro m ρ m' ρ' hpre hagree
  refine ⟨fun c => Cert.KernelIdeal.Hand.W4 m ρ c (Proc.devRef .tc Cert.KernelIdeal.main_v5), ?_, ?_⟩
  · refine (θ_run Cert.KernelIdeal.defs _ _).mono (fun r h c => ⟨?_, ?_, ?_, ?_, ?_⟩) (Cert.KernelIdeal.Hand.run_all m ρ)
    · exact h c _ (Cert.KernelIdeal.Hand.mem_uc Cert.KernelIdeal.main_v5 (by decide))
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
  · refine (θ_run Cert.ReferenceIdeal.defs _ _).mono (fun r h c => ⟨(h c).1.trans ?_, (h c).2⟩)
      (Cert.ReferenceIdeal.Value.run (F := Ideal) m' ρ')
    obtain ⟨⟨xr, hx⟩, ⟨wq, h1⟩, ⟨wk, h2⟩, ⟨wv, h3⟩⟩ := Cert.Val.real_of_pre _ _ _ _ (hpre c)
    rw [Cert.ReferenceIdeal.Read.val_main_v23_eq, (hagree c).1, (hagree c).2.1, (hagree c).2.2.1, (hagree c).2.2.2,
      Cert.Val.val23_eq_tail, Cert.Val.ref_eq _ _ _ _ xr wq wk wv hx h1 h2 h3]
    exact (kernel_result m ρ c xr wq wk wv hx h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
